-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x128x128 : Shape := ⟨4, ![8, 16, 128, 128]⟩
abbrev S1x4 : Shape := ⟨2, ![1, 4]⟩
abbrev S1x4x8 : Shape := ⟨3, ![1, 4, 8]⟩
abbrev S4x12 : Shape := ⟨2, ![4, 12]⟩
abbrev S_ : Shape := ⟨0, ![]⟩

class Facts : Prop where
  bcast_S_S8x16x128x128 : S_.BroadcastsInDim S8x16x128x128 (![] : Fin 0 → Fin S8x16x128x128.rank)
  reducesTo_S8x16x128x128_S_d0_1_2_3 : S8x16x128x128.ReducesTo [0, 1, 2, 3] S_
  h_S_ : 0 < S_.numel
  bcast_S_S1x4 : S_.BroadcastsInDim S1x4 (![] : Fin 0 → Fin S1x4.rank)
  reducesTo_S1x4_S_d0_1 : S1x4.ReducesTo [0, 1] S_
  bcast_S_S1x4x8 : S_.BroadcastsInDim S1x4x8 (![] : Fin 0 → Fin S1x4x8.rank)
  reducesTo_S1x4x8_S_d0_1_2 : S1x4x8.ReducesTo [0, 1, 2] S_
  bcast_S_S4x12 : S_.BroadcastsInDim S4x12 (![] : Fin 0 → Fin S4x12.rank)
  reducesTo_S4x12_S_d0_1 : S4x12.ReducesTo [0, 1] S_

variable [Facts]

def fn_part1 {F : FTy → Type} [FloatOps F] (main_arg4 : FVec F S4x12 .f32) (main_v13 : IVec S_ 1) (main_v16 : IVec S1x4 1) : IVec S_ 1 :=
  let main_c_5 : IVec S_ 1 := constantI S_ 1 1#1
  let main_v17 : IVec S_ 1 := (fun x v => Host.reduce IntOp.andi x v reducesTo_S1x4_S_d0_1 h_S_) main_v16 main_c_5
  let main_v18 : IVec S_ 1 := andi main_v13 main_v17
  let main_v19 : FVec F S4x12 .f32 := Host.absf main_arg4
  let main_cst_6 : FVec F S_ .f32 := constant S_ .f32 0x7F800000#32
  let main_v20 : FVec F S4x12 .f32 := broadcastInDim S4x12 ![] bcast_S_S4x12 main_cst_6
  let main_v21 : IVec S4x12 1 := cmpf .olt main_v19 main_v20
  let main_c_7 : IVec S_ 1 := constantI S_ 1 1#1
  let main_v22 : IVec S_ 1 := (fun x v => Host.reduce IntOp.andi x v reducesTo_S4x12_S_d0_1 h_S_) main_v21 main_c_7
  let main_v23 : IVec S_ 1 := andi main_v18 main_v22
  main_v23

def fn {F : FTy → Type} [FloatOps F] (main_arg0 : FVec F S8x16x128x128 .f32) (main_arg1 : FVec F S1x4 .f32) (main_arg2 : FVec F S1x4x8 .f32) (main_arg3 : FVec F S1x4 .f32) (main_arg4 : FVec F S4x12 .f32) : IVec S_ 1 :=
  let main_v0 : FVec F S8x16x128x128 .f32 := Host.absf main_arg0
  let main_cst : FVec F S_ .f32 := constant S_ .f32 0x7F800000#32
  let main_v1 : FVec F S8x16x128x128 .f32 := broadcastInDim S8x16x128x128 ![] bcast_S_S8x16x128x128 main_cst
  let main_v2 : IVec S8x16x128x128 1 := cmpf .olt main_v0 main_v1
  let main_c : IVec S_ 1 := constantI S_ 1 1#1
  let main_v3 : IVec S_ 1 := (fun x v => Host.reduce IntOp.andi x v reducesTo_S8x16x128x128_S_d0_1_2_3 h_S_) main_v2 main_c
  let main_v4 : FVec F S1x4 .f32 := Host.absf main_arg1
  let main_cst_0 : FVec F S_ .f32 := constant S_ .f32 0x7F800000#32
  let main_v5 : FVec F S1x4 .f32 := broadcastInDim S1x4 ![] bcast_S_S1x4 main_cst_0
  let main_v6 : IVec S1x4 1 := cmpf .olt main_v4 main_v5
  let main_c_1 : IVec S_ 1 := constantI S_ 1 1#1
  let main_v7 : IVec S_ 1 := (fun x v => Host.reduce IntOp.andi x v reducesTo_S1x4_S_d0_1 h_S_) main_v6 main_c_1
  let main_v8 : IVec S_ 1 := andi main_v3 main_v7
  let main_v9 : FVec F S1x4x8 .f32 := Host.absf main_arg2
  let main_cst_2 : FVec F S_ .f32 := constant S_ .f32 0x7F800000#32
  let main_v10 : FVec F S1x4x8 .f32 := broadcastInDim S1x4x8 ![] bcast_S_S1x4x8 main_cst_2
  let main_v11 : IVec S1x4x8 1 := cmpf .olt main_v9 main_v10
  let main_c_3 : IVec S_ 1 := constantI S_ 1 1#1
  let main_v12 : IVec S_ 1 := (fun x v => Host.reduce IntOp.andi x v reducesTo_S1x4x8_S_d0_1_2 h_S_) main_v11 main_c_3
  let main_v13 : IVec S_ 1 := andi main_v8 main_v12
  let main_v14 : FVec F S1x4 .f32 := Host.absf main_arg3
  let main_cst_4 : FVec F S_ .f32 := constant S_ .f32 0x7F800000#32
  let main_v15 : FVec F S1x4 .f32 := broadcastInDim S1x4 ![] bcast_S_S1x4 main_cst_4
  let main_v16 : IVec S1x4 1 := cmpf .olt main_v14 main_v15
  fn_part1 (F := F) main_arg4 main_v13 main_v16
-- ==== Kernel.lean ====
abbrev S8x16x128x128 : Shape := ⟨4, ![8, 16, 128, 128]⟩
abbrev S1x4 : Shape := ⟨2, ![1, 4]⟩
abbrev S1x4x8 : Shape := ⟨3, ![1, 4, 8]⟩
abbrev S4x12 : Shape := ⟨2, ![4, 12]⟩
abbrev S8x1x127x127 : Shape := ⟨4, ![8, 1, 127, 127]⟩
abbrev S1x16x128x128 : Shape := ⟨4, ![1, 16, 128, 128]⟩
abbrev S1x1x127x127 : Shape := ⟨4, ![1, 1, 127, 127]⟩
abbrev S16x128x128 : Shape := ⟨3, ![16, 128, 128]⟩
abbrev S4 : Shape := ⟨1, ![4]⟩
abbrev S4x8 : Shape := ⟨2, ![4, 8]⟩
abbrev S16x127x127 : Shape := ⟨3, ![16, 127, 127]⟩
abbrev S1 : Shape := ⟨1, ![1]⟩
abbrev S1x1 : Shape := ⟨2, ![1, 1]⟩
abbrev S127x127 : Shape := ⟨2, ![127, 127]⟩

abbrev nBuf : Space → Nat
  | .hbm => 6
  | .vmem => 8
  | .smem => 0
  | _ => 0

abbrev bufTy : (tb : Table) → Fin (tcTables nBuf tb) → BufTy
  | .hbm, ⟨0, _⟩ => ⟨S8x16x128x128, .f32⟩
  | .hbm, ⟨1, _⟩ => ⟨S1x4, .f32⟩
  | .hbm, ⟨2, _⟩ => ⟨S1x4x8, .f32⟩
  | .hbm, ⟨3, _⟩ => ⟨S1x4, .f32⟩
  | .hbm, ⟨4, _⟩ => ⟨S4x12, .f32⟩
  | .hbm, ⟨5, _⟩ => ⟨S8x1x127x127, .f32⟩
  | .local _ .vmem, ⟨0, _⟩ => ⟨S1x16x128x128, .f32⟩
  | .local _ .vmem, ⟨1, _⟩ => ⟨S1x16x128x128, .f32⟩
  | .local _ .vmem, ⟨2, _⟩ => ⟨S4x12, .f32⟩
  | .local _ .vmem, ⟨3, _⟩ => ⟨S1x4, .f32⟩
  | .local _ .vmem, ⟨4, _⟩ => ⟨S1x4x8, .f32⟩
  | .local _ .vmem, ⟨5, _⟩ => ⟨S1x4, .f32⟩
  | .local _ .vmem, ⟨6, _⟩ => ⟨S1x1x127x127, .f32⟩
  | .local _ .vmem, ⟨7, _⟩ => ⟨S1x1x127x127, .f32⟩
  | _, _ => ⟨S8x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x127x127 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x16x128x128_S1x16x128x128_0_0_0_0 : ∀ a, (![0, 0, 0, 0] : Fin 4 → Nat) a + S1x16x128x128.size a ≤ S1x16x128x128.size a
  h_S1x16x128x128 : 0 < S1x16x128x128.numel
  shapeCasts_S1x16x128x128_S16x128x128 : S1x16x128x128.ShapeCasts S16x128x128
  inb_S4x12_S4x12_0_0 : ∀ a, (![0, 0] : Fin 2 → Nat) a + S4x12.size a ≤ S4x12.size a
  h_S4x12 : 0 < S4x12.numel
  inb_S1x4_S1x4_0_0 : ∀ a, (![0, 0] : Fin 2 → Nat) a + S1x4.size a ≤ S1x4.size a
  h_S1x4 : 0 < S1x4.numel
  shapeCasts_S1x4_S4 : S1x4.ShapeCasts S4
  inb_S1x4x8_S1x4x8_0_0_0 : ∀ a, (![0, 0, 0] : Fin 3 → Nat) a + S1x4x8.size a ≤ S1x4x8.size a
  h_S1x4x8 : 0 < S1x4x8.numel
  shapeCasts_S1x4x8_S4x8 : S1x4x8.ShapeCasts S4x8
  slices_S16x128x128_o0_0_0_S16x127x127 : S16x128x128.Slices ![0, 0, 0] S16x127x127
  slices_S16x128x128_o0_0_1_S16x127x127 : S16x128x128.Slices ![0, 0, 1] S16x127x127
  slices_S16x128x128_o0_1_0_S16x127x127 : S16x128x128.Slices ![0, 1, 0] S16x127x127
  slices_S16x128x128_o0_1_1_S16x127x127 : S16x128x128.Slices ![0, 1, 1] S16x127x127
  slices_S4_o0_S1 : S4.Slices ![0] S1
  inpos_S1_p0 : ∀ a, (![0] : Fin 1 → Nat) a < S1.size a
  slices_S4x12_o0_0_S1x1 : S4x12.Slices ![0, 0] S1x1
  inpos_S1x1_p0_0 : ∀ a, (![0, 0] : Fin 2 → Nat) a < S1x1.size a
  slices_S4x12_o0_1_S1x1 : S4x12.Slices ![0, 1] S1x1
  slices_S4x12_o0_2_S1x1 : S4x12.Slices ![0, 2] S1x1
  slices_S4x12_o0_3_S1x1 : S4x12.Slices ![0, 3] S1x1
  slices_S4x12_o0_4_S1x1 : S4x12.Slices ![0, 4] S1x1
  slices_S4x12_o0_5_S1x1 : S4x12.Slices ![0, 5] S1x1
  slices_S4x12_o0_6_S1x1 : S4x12.Slices ![0, 6] S1x1
  slices_S4x12_o0_7_S1x1 : S4x12.Slices ![0, 7] S1x1
  slices_S4x12_o0_8_S1x1 : S4x12.Slices ![0, 8] S1x1
  slices_S4x12_o0_9_S1x1 : S4x12.Slices ![0, 9] S1x1
  slices_S4x12_o0_10_S1x1 : S4x12.Slices ![0, 10] S1x1
  slices_S4x12_o0_11_S1x1 : S4x12.Slices ![0, 11] S1x1
  natLt_1_32 : 1 < 32
  slices_S4x8_o0_0_S1x1 : S4x8.Slices ![0, 0] S1x1
  slices_S4x8_o0_1_S1x1 : S4x8.Slices ![0, 1] S1x1
  slices_S4x8_o0_2_S1x1 : S4x8.Slices ![0, 2] S1x1
  slices_S4x8_o0_3_S1x1 : S4x8.Slices ![0, 3] S1x1
  slices_S4x8_o0_4_S1x1 : S4x8.Slices ![0, 4] S1x1
  slices_S4x8_o0_5_S1x1 : S4x8.Slices ![0, 5] S1x1
  slices_S4x8_o0_6_S1x1 : S4x8.Slices ![0, 6] S1x1
  slices_S4x8_o0_7_S1x1 : S4x8.Slices ![0, 7] S1x1
  slices_S4_o1_S1 : S4.Slices ![1] S1
  slices_S4x12_o1_0_S1x1 : S4x12.Slices ![1, 0] S1x1
  slices_S4x12_o1_1_S1x1 : S4x12.Slices ![1, 1] S1x1
  slices_S4x12_o1_2_S1x1 : S4x12.Slices ![1, 2] S1x1
  slices_S4x12_o1_3_S1x1 : S4x12.Slices ![1, 3] S1x1
  slices_S4x12_o1_4_S1x1 : S4x12.Slices ![1, 4] S1x1
  slices_S4x12_o1_5_S1x1 : S4x12.Slices ![1, 5] S1x1
  slices_S4x12_o1_6_S1x1 : S4x12.Slices ![1, 6] S1x1
  slices_S4x12_o1_7_S1x1 : S4x12.Slices ![1, 7] S1x1
  slices_S4x12_o1_8_S1x1 : S4x12.Slices ![1, 8] S1x1
  slices_S4x12_o1_9_S1x1 : S4x12.Slices ![1, 9] S1x1
  slices_S4x12_o1_10_S1x1 : S4x12.Slices ![1, 10] S1x1
  slices_S4x12_o1_11_S1x1 : S4x12.Slices ![1, 11] S1x1
  slices_S4x8_o1_0_S1x1 : S4x8.Slices ![1, 0] S1x1
  slices_S4x8_o1_1_S1x1 : S4x8.Slices ![1, 1] S1x1
  slices_S4x8_o1_2_S1x1 : S4x8.Slices ![1, 2] S1x1
  slices_S4x8_o1_3_S1x1 : S4x8.Slices ![1, 3] S1x1
  slices_S4x8_o1_4_S1x1 : S4x8.Slices ![1, 4] S1x1
  slices_S4x8_o1_5_S1x1 : S4x8.Slices ![1, 5] S1x1
  slices_S4x8_o1_6_S1x1 : S4x8.Slices ![1, 6] S1x1
  slices_S4x8_o1_7_S1x1 : S4x8.Slices ![1, 7] S1x1
  slices_S4_o2_S1 : S4.Slices ![2] S1
  slices_S4x12_o2_0_S1x1 : S4x12.Slices ![2, 0] S1x1
  slices_S4x12_o2_1_S1x1 : S4x12.Slices ![2, 1] S1x1
  slices_S4x12_o2_2_S1x1 : S4x12.Slices ![2, 2] S1x1
  slices_S4x12_o2_3_S1x1 : S4x12.Slices ![2, 3] S1x1
  slices_S4x12_o2_4_S1x1 : S4x12.Slices ![2, 4] S1x1
  slices_S4x12_o2_5_S1x1 : S4x12.Slices ![2, 5] S1x1
  slices_S4x12_o2_6_S1x1 : S4x12.Slices ![2, 6] S1x1
  slices_S4x12_o2_7_S1x1 : S4x12.Slices ![2, 7] S1x1
  slices_S4x12_o2_8_S1x1 : S4x12.Slices ![2, 8] S1x1
  slices_S4x12_o2_9_S1x1 : S4x12.Slices ![2, 9] S1x1
  slices_S4x12_o2_10_S1x1 : S4x12.Slices ![2, 10] S1x1
  slices_S4x12_o2_11_S1x1 : S4x12.Slices ![2, 11] S1x1
  slices_S4x8_o2_0_S1x1 : S4x8.Slices ![2, 0] S1x1
  slices_S4x8_o2_1_S1x1 : S4x8.Slices ![2, 1] S1x1
  slices_S4x8_o2_2_S1x1 : S4x8.Slices ![2, 2] S1x1
  slices_S4x8_o2_3_S1x1 : S4x8.Slices ![2, 3] S1x1
  slices_S4x8_o2_4_S1x1 : S4x8.Slices ![2, 4] S1x1
  slices_S4x8_o2_5_S1x1 : S4x8.Slices ![2, 5] S1x1
  slices_S4x8_o2_6_S1x1 : S4x8.Slices ![2, 6] S1x1
  slices_S4x8_o2_7_S1x1 : S4x8.Slices ![2, 7] S1x1
  slices_S4_o3_S1 : S4.Slices ![3] S1
  slices_S4x12_o3_0_S1x1 : S4x12.Slices ![3, 0] S1x1
  slices_S4x12_o3_1_S1x1 : S4x12.Slices ![3, 1] S1x1
  slices_S4x12_o3_2_S1x1 : S4x12.Slices ![3, 2] S1x1
  slices_S4x12_o3_3_S1x1 : S4x12.Slices ![3, 3] S1x1
  slices_S4x12_o3_4_S1x1 : S4x12.Slices ![3, 4] S1x1
  slices_S4x12_o3_5_S1x1 : S4x12.Slices ![3, 5] S1x1
  slices_S4x12_o3_6_S1x1 : S4x12.Slices ![3, 6] S1x1
  slices_S4x12_o3_7_S1x1 : S4x12.Slices ![3, 7] S1x1
  slices_S4x12_o3_8_S1x1 : S4x12.Slices ![3, 8] S1x1
  slices_S4x12_o3_9_S1x1 : S4x12.Slices ![3, 9] S1x1
  slices_S4x12_o3_10_S1x1 : S4x12.Slices ![3, 10] S1x1
  slices_S4x12_o3_11_S1x1 : S4x12.Slices ![3, 11] S1x1
  slices_S4x8_o3_0_S1x1 : S4x8.Slices ![3, 0] S1x1
  slices_S4x8_o3_1_S1x1 : S4x8.Slices ![3, 1] S1x1
  slices_S4x8_o3_2_S1x1 : S4x8.Slices ![3, 2] S1x1
  slices_S4x8_o3_3_S1x1 : S4x8.Slices ![3, 3] S1x1
  slices_S4x8_o3_4_S1x1 : S4x8.Slices ![3, 4] S1x1
  slices_S4x8_o3_5_S1x1 : S4x8.Slices ![3, 5] S1x1
  slices_S4x8_o3_6_S1x1 : S4x8.Slices ![3, 6] S1x1
  slices_S4x8_o3_7_S1x1 : S4x8.Slices ![3, 7] S1x1
  reduces_S16x127x127_S127x127 : S16x127x127.Reduces [0] S127x127
  inb_S1x1x127x127_S1x1x127x127_0_0_0_0 : ∀ a, (![0, 0, 0, 0] : Fin 4 → Nat) a + S1x1x127x127.size a ≤ S1x1x127x127.size a
  h_S1x1x127x127 : 0 < S1x1x127x127.numel
  shapeCasts_S1x1x127x127_S127x127 : S1x1x127x127.ShapeCasts S127x127
  shapeCasts_S127x127_S1x1x127x127 : S127x127.ShapeCasts S1x1x127x127
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x128.size a ≤ S8x16x128x128.size a
  hwx0_0 : ∀ i : grid0.Coords, EltTy.bits .f32 = 32 ∨ (Rect.block (s := S8x16x128x128) S1x16x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x12.size a ≤ S4x12.size a
  hwx0_1 : ∀ i : grid0.Coords, EltTy.bits .f32 = 32 ∨ (Rect.block (s := S4x12) S4x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4x8.size a ≤ S1x4x8.size a
  hwx0_3 : ∀ i : grid0.Coords, EltTy.bits .f32 = 32 ∨ (Rect.block (s := S1x4x8) S1x4x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4.size a ≤ S1x4.size a
  hwx0_4 : ∀ i : grid0.Coords, EltTy.bits .f32 = 32 ∨ (Rect.block (s := S1x4) S1x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x127x127.size a ≤ S8x1x127x127.size a
  hwx0_5 : ∀ i : grid0.Coords, EltTy.bits .f32 = 32 ∨ (Rect.block (s := S8x1x127x127) S1x1x127x127.size (cc0_transform_5 i) (hinb0_5 i)).WholeWords (EltTy.packing .f32)

variable [Facts₀]

abbrev win0_0 : Pipeline.Window sig grid0 :=
  Pipeline.Window.ofSpec (Memref.whole main_arg0) S1x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x4x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x127x127.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16x128x128 : Shape := ⟨4, ![8, 16, 128, 128]⟩
abbrev S1x4 : Shape := ⟨2, ![1, 4]⟩
abbrev S1x4x8 : Shape := ⟨3, ![1, 4, 8]⟩
abbrev S4x12 : Shape := ⟨2, ![4, 12]⟩
abbrev S8x16x127x127 : Shape := ⟨4, ![8, 16, 127, 127]⟩
abbrev S8x16x127x127x1 : Shape := ⟨5, ![8, 16, 127, 127, 1]⟩
abbrev S8x16x127x127x4 : Shape := ⟨5, ![8, 16, 127, 127, 4]⟩
abbrev S2064512x4 : Shape := ⟨2, ![2064512, 4]⟩
abbrev S_ : Shape := ⟨0, ![]⟩
abbrev S4x1 : Shape := ⟨2, ![4, 1]⟩
abbrev S2064512x1 : Shape := ⟨2, ![2064512, 1]⟩
abbrev S2064512x4x1 : Shape := ⟨3, ![2064512, 4, 1]⟩
abbrev S4x11 : Shape := ⟨2, ![4, 11]⟩
abbrev S1x4x11 : Shape := ⟨3, ![1, 4, 11]⟩
abbrev S2064512x4x11 : Shape := ⟨3, ![2064512, 4, 11]⟩
abbrev S4x10 : Shape := ⟨2, ![4, 10]⟩
abbrev S1x4x10 : Shape := ⟨3, ![1, 4, 10]⟩
abbrev S2064512x4x10 : Shape := ⟨3, ![2064512, 4, 10]⟩
abbrev S4x9 : Shape := ⟨2, ![4, 9]⟩
abbrev S1x4x9 : Shape := ⟨3, ![1, 4, 9]⟩
abbrev S2064512x4x9 : Shape := ⟨3, ![2064512, 4, 9]⟩
abbrev S4x8 : Shape := ⟨2, ![4, 8]⟩
abbrev S2064512x4x8 : Shape := ⟨3, ![2064512, 4, 8]⟩
abbrev S1x4x1 : Shape := ⟨3, ![1, 4, 1]⟩
abbrev S2064512x32 : Shape := ⟨2, ![2064512, 32]⟩
abbrev S1x32 : Shape := ⟨2, ![1, 32]⟩
abbrev S32x1 : Shape := ⟨2, ![32, 1]⟩
abbrev S8x127x127 : Shape := ⟨3, ![8, 127, 127]⟩
abbrev S8x1x127x127 : Shape := ⟨4, ![8, 1, 127, 127]⟩

abbrev nBuf : Space → Nat
  | .hbm => 132
  | .vmem => 0
  | .smem => 0
  | _ => 0

abbrev hbmTy0_0 (i : Nat) : BufTy := match i % 128 with
  | 0 => ⟨S8x16x128x128, .f32⟩
  | 1 => ⟨S1x4, .f32⟩
  | 2 => ⟨S1x4x8, .f32⟩
  | 3 => ⟨S1x4, .f32⟩
  | 4 => ⟨S4x12, .f32⟩
  | 5 => ⟨S8x16x127x127, .f32⟩
  | 6 => ⟨S8x16x127x127, .f32⟩
  | 7 => ⟨S8x16x127x127, .f32⟩
  | 8 => ⟨S8x16x127x127, .f32⟩
  | 9 => ⟨S8x16x127x127x1, .f32⟩
  | 10 => ⟨S8x16x127x127x1, .f32⟩
  | 11 => ⟨S8x16x127x127x1, .f32⟩
  | 12 => ⟨S8x16x127x127x1, .f32⟩
  | 13 => ⟨S8x16x127x127x4, .f32⟩
  | 14 => ⟨S2064512x4, .f32⟩
  | 15 => ⟨S2064512x4, .f32⟩
  | 16 => ⟨S2064512x4, .f32⟩
  | 17 => ⟨S_, .f32⟩
  | 18 => ⟨S2064512x4, .f32⟩
  | 19 => ⟨S2064512x4, .f32⟩
  | 20 => ⟨S_, .f32⟩
  | 21 => ⟨S2064512x4, .f32⟩
  | 22 => ⟨S2064512x4, .f32⟩
  | 23 => ⟨S2064512x4, .f32⟩
  | 24 => ⟨S4x1, .f32⟩
  | 25 => ⟨S2064512x1, .f32⟩
  | 26 => ⟨S2064512x4x1, .f32⟩
  | 27 => ⟨S4x11, .f32⟩
  | 28 => ⟨S1x4x11, .f32⟩
  | 29 => ⟨S2064512x4x11, .f32⟩
  | 30 => ⟨S2064512x4x11, .f32⟩
  | 31 => ⟨S2064512x4x11, .i1⟩
  | 32 => ⟨S4x11, .f32⟩
  | 33 => ⟨S1x4x11, .f32⟩
  | 34 => ⟨S2064512x4x11, .f32⟩
  | 35 => ⟨S2064512x4x11, .f32⟩
  | 36 => ⟨S2064512x4x11, .i1⟩
  | 37 => ⟨S2064512x4x11, .i1⟩
  | 38 => ⟨S2064512x4x11, .f32⟩
  | 39 => ⟨S4x10, .f32⟩
  | 40 => ⟨S1x4x10, .f32⟩
  | 41 => ⟨S2064512x4x10, .f32⟩
  | 42 => ⟨S2064512x4x10, .f32⟩
  | 43 => ⟨S2064512x4x10, .f32⟩
  | 44 => ⟨S4x10, .f32⟩
  | 45 => ⟨S4x10, .f32⟩
  | 46 => ⟨S4x10, .f32⟩
  | 47 => ⟨S1x4x10, .f32⟩
  | 48 => ⟨S2064512x4x10, .f32⟩
  | 49 => ⟨S2064512x4x10, .f32⟩
  | 50 => ⟨S4x10, .f32⟩
  | 51 => ⟨S1x4x10, .f32⟩
  | 52 => ⟨S2064512x4x10, .f32⟩
  | 53 => ⟨S2064512x4x10, .f32⟩
  | 54 => ⟨S2064512x4x10, .f32⟩
  | 55 => ⟨S4x10, .f32⟩
  | 56 => ⟨S4x10, .f32⟩
  | 57 => ⟨S4x10, .f32⟩
  | 58 => ⟨S1x4x10, .f32⟩
  | 59 => ⟨S2064512x4x10, .f32⟩
  | 60 => ⟨S2064512x4x10, .f32⟩
  | 61 => ⟨S2064512x4x10, .f32⟩
  | 62 => ⟨S2064512x4x10, .f32⟩
  | 63 => ⟨S2064512x4x10, .f32⟩
  | 64 => ⟨S2064512x4x10, .f32⟩
  | 65 => ⟨S2064512x4x10, .f32⟩
  | 66 => ⟨S4x9, .f32⟩
  | 67 => ⟨S1x4x9, .f32⟩
  | 68 => ⟨S2064512x4x9, .f32⟩
  | 69 => ⟨S2064512x4x9, .f32⟩
  | 70 => ⟨S2064512x4x9, .f32⟩
  | 71 => ⟨S4x9, .f32⟩
  | 72 => ⟨S4x9, .f32⟩
  | 73 => ⟨S4x9, .f32⟩
  | 74 => ⟨S1x4x9, .f32⟩
  | 75 => ⟨S2064512x4x9, .f32⟩
  | 76 => ⟨S2064512x4x9, .f32⟩
  | 77 => ⟨S4x9, .f32⟩
  | 78 => ⟨S1x4x9, .f32⟩
  | 79 => ⟨S2064512x4x9, .f32⟩
  | 80 => ⟨S2064512x4x9, .f32⟩
  | 81 => ⟨S2064512x4x9, .f32⟩
  | 82 => ⟨S4x9, .f32⟩
  | 83 => ⟨S4x9, .f32⟩
  | 84 => ⟨S4x9, .f32⟩
  | 85 => ⟨S1x4x9, .f32⟩
  | 86 => ⟨S2064512x4x9, .f32⟩
  | 87 => ⟨S2064512x4x9, .f32⟩
  | 88 => ⟨S2064512x4x9, .f32⟩
  | 89 => ⟨S2064512x4x9, .f32⟩
  | 90 => ⟨S2064512x4x9, .f32⟩
  | 91 => ⟨S2064512x4x9, .f32⟩
  | 92 => ⟨S2064512x4x9, .f32⟩
  | 93 => ⟨S4x8, .f32⟩
  | 94 => ⟨S1x4x8, .f32⟩
  | 95 => ⟨S2064512x4x8, .f32⟩
  | 96 => ⟨S2064512x4x8, .f32⟩
  | 97 => ⟨S2064512x4x8, .f32⟩
  | 98 => ⟨S4x8, .f32⟩
  | 99 => ⟨S4x8, .f32⟩
  | 100 => ⟨S4x8, .f32⟩
  | 101 => ⟨S1x4x8, .f32⟩
  | 102 => ⟨S2064512x4x8, .f32⟩
  | 103 => ⟨S2064512x4x8, .f32⟩
  | 104 => ⟨S4x8, .f32⟩
  | 105 => ⟨S1x4x8, .f32⟩
  | 106 => ⟨S2064512x4x8, .f32⟩
  | 107 => ⟨S2064512x4x8, .f32⟩
  | 108 => ⟨S2064512x4x8, .f32⟩
  | 109 => ⟨S4x8, .f32⟩
  | 110 => ⟨S4x8, .f32⟩
  | 111 => ⟨S4x8, .f32⟩
  | 112 => ⟨S1x4x8, .f32⟩
  | 113 => ⟨S2064512x4x8, .f32⟩
  | 114 => ⟨S2064512x4x8, .f32⟩
  | 115 => ⟨S2064512x4x8, .f32⟩
  | 116 => ⟨S2064512x4x8, .f32⟩
  | 117 => ⟨S2064512x4x8, .f32⟩
  | 118 => ⟨S2064512x4x8, .f32⟩
  | 119 => ⟨S2064512x4x8, .f32⟩
  | 120 => ⟨S1x4x1, .f32⟩
  | 121 => ⟨S1x4x8, .f32⟩
  | 122 => ⟨S1x4x8, .f32⟩
  | 123 => ⟨S2064512x32, .f32⟩
  | 124 => ⟨S1x32, .f32⟩
  | 125 => ⟨S32x1, .f32⟩
  | 126 => ⟨S2064512x1, .f32⟩
  | 127 => ⟨S2064512x1, .f32⟩
  | _ => ⟨S8x16x128x128, .f32⟩

abbrev hbmTy0_1 (i : Nat) : BufTy := match i % 128 with
  | 0 => ⟨S8x16x127x127, .f32⟩
  | 1 => ⟨S_, .f32⟩
  | 2 => ⟨S8x127x127, .f32⟩
  | 3 => ⟨S8x1x127x127, .f32⟩
  | _ => ⟨S8x16x128x128, .f32⟩

abbrev hbmTy (i : Nat) : BufTy := match i / 128 with
  | 0 => hbmTy0_0 i
  | 1 => hbmTy0_1 i
  | _ => ⟨S8x16x128x128, .f32⟩

abbrev bufTy : (tb : Table) → Fin (tcTables nBuf tb) → BufTy
  | .hbm, ⟨i, _⟩ => hbmTy i
  | _, _ => ⟨S8x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_cst : Ref sig .tc := ⟨.hbm, 129, rfl⟩
abbrev main_v116 : Ref sig .tc := ⟨.hbm, 130, rfl⟩
abbrev main_v117 : Ref sig .tc := ⟨.hbm, 131, rfl⟩

abbrev nD : Nat := 1
abbrev τ : Topo := Topo.v7x

variable {F : FTy → Type} [FloatOps F]

class Facts₀ : Prop where
  slices_S8x16x128x128_S8x16x127x127_0_0_0_0 : S8x16x128x128.Slices ![0, 0, 0, 0] S8x16x127x127
  slices_S8x16x128x128_S8x16x127x127_0_0_0_1 : S8x16x128x128.Slices ![0, 0, 0, 1] S8x16x127x127
  slices_S8x16x128x128_S8x16x127x127_0_0_1_0 : S8x16x128x128.Slices ![0, 0, 1, 0] S8x16x127x127
  slices_S8x16x128x128_S8x16x127x127_0_0_1_1 : S8x16x128x128.Slices ![0, 0, 1, 1] S8x16x127x127
  bcast_S8x16x127x127_S8x16x127x127x1_0_1_2_3 : S8x16x127x127.BroadcastsInDim S8x16x127x127x1 (![0, 1, 2, 3] : Fin 4 → Fin S8x16x127x127x1.rank)
  concatenates_S8x16x127x127x1_S8x16x127x127x1_S8x16x127x127x1_S8x16x127x127x1_S8x16x127x127x4_d4 : Shape.Concatenates [S8x16x127x127x1, S8x16x127x127x1, S8x16x127x127x1, S8x16x127x127x1] S8x16x127x127x4 4
  shapeCasts_S8x16x127x127x4_S2064512x4 : S8x16x127x127x4.ShapeCasts S2064512x4
  bcast_S_S2064512x4 : S_.BroadcastsInDim S2064512x4 (![] : Fin 0 → Fin S2064512x4.rank)
  transposes_S1x4_S4x1_1_0 : S1x4.Transposes [1, 0] S4x1
  bcast_S2064512x4_S2064512x4x1_0_1 : S2064512x4.BroadcastsInDim S2064512x4x1 (![0, 1] : Fin 2 → Fin S2064512x4x1.rank)
  slices_S4x12_S4x11_0_0 : S4x12.Slices ![0, 0] S4x11
  bcast_S4x11_S1x4x11_1_2 : S4x11.BroadcastsInDim S1x4x11 (![1, 2] : Fin 2 → Fin S1x4x11.rank)
  bcast_S2064512x4x1_S2064512x4x11_0_1_2 : S2064512x4x1.BroadcastsInDim S2064512x4x11 (![0, 1, 2] : Fin 3 → Fin S2064512x4x11.rank)
  bcast_S1x4x11_S2064512x4x11_0_1_2 : S1x4x11.BroadcastsInDim S2064512x4x11 (![0, 1, 2] : Fin 3 → Fin S2064512x4x11.rank)
  slices_S4x12_S4x11_0_1 : S4x12.Slices ![0, 1] S4x11
  slices_S4x12_S4x10_0_0 : S4x12.Slices ![0, 0] S4x10
  bcast_S4x10_S1x4x10_1_2 : S4x10.BroadcastsInDim S1x4x10 (![1, 2] : Fin 2 → Fin S1x4x10.rank)
  bcast_S2064512x4x1_S2064512x4x10_0_1_2 : S2064512x4x1.BroadcastsInDim S2064512x4x10 (![0, 1, 2] : Fin 3 → Fin S2064512x4x10.rank)
  bcast_S1x4x10_S2064512x4x10_0_1_2 : S1x4x10.BroadcastsInDim S2064512x4x10 (![0, 1, 2] : Fin 3 → Fin S2064512x4x10.rank)
  slices_S4x12_S4x10_0_1 : S4x12.Slices ![0, 1] S4x10
  slices_S4x12_S4x10_0_2 : S4x12.Slices ![0, 2] S4x10
  slices_S2064512x4x11_S2064512x4x10_0_0_0 : S2064512x4x11.Slices ![0, 0, 0] S2064512x4x10
  slices_S2064512x4x11_S2064512x4x10_0_0_1 : S2064512x4x11.Slices ![0, 0, 1] S2064512x4x10
  slices_S4x12_S4x9_0_0 : S4x12.Slices ![0, 0] S4x9
  bcast_S4x9_S1x4x9_1_2 : S4x9.BroadcastsInDim S1x4x9 (![1, 2] : Fin 2 → Fin S1x4x9.rank)
  bcast_S2064512x4x1_S2064512x4x9_0_1_2 : S2064512x4x1.BroadcastsInDim S2064512x4x9 (![0, 1, 2] : Fin 3 → Fin S2064512x4x9.rank)
  bcast_S1x4x9_S2064512x4x9_0_1_2 : S1x4x9.BroadcastsInDim S2064512x4x9 (![0, 1, 2] : Fin 3 → Fin S2064512x4x9.rank)
  slices_S4x12_S4x9_0_2 : S4x12.Slices ![0, 2] S4x9
  slices_S4x12_S4x9_0_3 : S4x12.Slices ![0, 3] S4x9
  slices_S4x12_S4x9_0_1 : S4x12.Slices ![0, 1] S4x9
  slices_S2064512x4x10_S2064512x4x9_0_0_0 : S2064512x4x10.Slices ![0, 0, 0] S2064512x4x9
  slices_S2064512x4x10_S2064512x4x9_0_0_1 : S2064512x4x10.Slices ![0, 0, 1] S2064512x4x9
  slices_S4x12_S4x8_0_0 : S4x12.Slices ![0, 0] S4x8
  bcast_S4x8_S1x4x8_1_2 : S4x8.BroadcastsInDim S1x4x8 (![1, 2] : Fin 2 → Fin S1x4x8.rank)
  bcast_S2064512x4x1_S2064512x4x8_0_1_2 : S2064512x4x1.BroadcastsInDim S2064512x4x8 (![0, 1, 2] : Fin 3 → Fin S2064512x4x8.rank)
  bcast_S1x4x8_S2064512x4x8_0_1_2 : S1x4x8.BroadcastsInDim S2064512x4x8 (![0, 1, 2] : Fin 3 → Fin S2064512x4x8.rank)
  slices_S4x12_S4x8_0_3 : S4x12.Slices ![0, 3] S4x8
  slices_S4x12_S4x8_0_4 : S4x12.Slices ![0, 4] S4x8
  slices_S4x12_S4x8_0_1 : S4x12.Slices ![0, 1] S4x8
  slices_S2064512x4x9_S2064512x4x8_0_0_0 : S2064512x4x9.Slices ![0, 0, 0] S2064512x4x8
  slices_S2064512x4x9_S2064512x4x8_0_0_1 : S2064512x4x9.Slices ![0, 0, 1] S2064512x4x8
  bcast_S1x4_S1x4x1_0_1 : S1x4.BroadcastsInDim S1x4x1 (![0, 1] : Fin 2 → Fin S1x4x1.rank)
  bcast_S1x4x1_S1x4x8_0_1_2 : S1x4x1.BroadcastsInDim S1x4x8 (![0, 1, 2] : Fin 3 → Fin S1x4x8.rank)
  shapeCasts_S2064512x4x8_S2064512x32 : S2064512x4x8.ShapeCasts S2064512x32
  shapeCasts_S1x4x8_S1x32 : S1x4x8.ShapeCasts S1x32
  transposes_S1x32_S32x1_1_0 : S1x32.Transposes [1, 0] S32x1
  shapeCasts_S2064512x1_S8x16x127x127 : S2064512x1.ShapeCasts S8x16x127x127
  reducesTo_S8x16x127x127_S8x127x127_d1 : S8x16x127x127.ReducesTo [1] S8x127x127
  h_S_ : 0 < S_.numel
  bcast_S8x127x127_S8x1x127x127_0_2_3 : S8x127x127.BroadcastsInDim S8x1x127x127 (![0, 2, 3] : Fin 3 → Fin S8x1x127x127.rank)
  dot_S2064512x4_S4x1_S2064512x1_1_0_0_1_n_n_wf : DotDims.WF S2064512x4 S4x1 S2064512x1 [1] [0] [0] [1] [] []
  dot_S2064512x32_S32x1_S2064512x1_1_0_0_1_n_n_wf : DotDims.WF S2064512x32 S32x1 S2064512x1 [1] [0] [0] [1] [] []

variable [Facts₀]

def dot_S2064512x4_S4x1_S2064512x1_1_0_0_1_n_n : DotDims S2064512x4 S4x1 S2064512x1 where
  lhsContracting := [1]
  rhsContracting := [0]
  lhsNonContracting := [0]
  rhsNonContracting := [1]
  lhsBatch := []
  rhsBatch := []
  wf := dot_S2064512x4_S4x1_S2064512x1_1_0_0_1_n_n_wf
def dot_S2064512x32_S32x1_S2064512x1_1_0_0_1_n_n : DotDims S2064512x32 S32x1 S2064512x1 where
  lhsContracting := [1]
  rhsContracting := [0]
  lhsNonContracting := [0]
  rhsNonContracting := [1]
  lhsBatch := []
  rhsBatch := []
  wf := dot_S2064512x32_S32x1_S2064512x1_1_0_0_1_n_n_wf

class Facts : Prop extends Facts₀ where

variable [Facts]
-- ==== Proof.Spec.lean ====
/-
  A KAN convolution layer with 2×2 windows, one output channel, cubic B-splines on 12 knots.

  For one window position, with its four entries x₀ … x₃ (the window read row by row), each
  entry k contributes
    silu(x_k) · bw_k  +  ∑_{c<8} B³_c(x_k; knots of row k) · (sw_{k,c} · ss_k),
  where silu(x) = x · 1/(1 + e^{-x}) and B³_c is the cubic B-spline on knots c … c+4 given by
  the Cox–de Boor recursion
    B⁰_c(x) = [g_c ≤ x < g_{c+1}],
    B^{s+1}_c(x) = (x − g_c)/(g_{c+s+1} − g_c) · B^s_c(x) + (g_{c+s+2} − x)/(g_{c+s+2} − g_{c+1}) · B^s_{c+1}(x).
  The layer's output at (b, p, q) is the sum over the 16 input channels of that value at the
  window with corner (p, q).  Everything is read on the extended reals, with the quotient the
  machine's (so a repeated knot is a division by zero on both sides alike).

  Also here: the sum of the 36 terms taken feature by feature (base term, then its eight spline
  terms) equals the base terms' sum plus the spline terms' double sum: only commutativity and
  associativity of addition, so no finiteness is needed.
-/
import Idealize.ShloMosaic.PureOps.Ideal
import Idealize.ShloMosaic.Lib.ValueIdx
import Mathlib.Algebra.BigOperators.Fin

noncomputable section

namespace Cert.KanConv

open Idealize.ShloMosaic Idealize.ShloMosaic.ValueIdx

/-- The float word of 1.0, kept as its pattern: both programs spell the same word. -/
abbrev one : EReal := Ideal.ofBits .f32 0x3F800000#32

/-- `[lo ≤ x < hi]` as the number 0 or 1. -/
def ind (x lo hi : EReal) : EReal :=
  (((IntOp.andi (Ideal.cmp .oge x lo) (Ideal.cmp .olt x hi)).toNat : ℝ) : EReal)

/-- Cox–de Boor: the B-spline of degree `s` on the knots `g c … g (c + s + 1)`, at `x`. -/
def bspl (g : ℕ → EReal) (x : EReal) : ℕ → ℕ → EReal
  | 0, c => ind x (g c) (g (c + 1))
  | s + 1, c => Ideal.div (x - g c) (g (c + s + 1) - g c) * bspl g x s c
      + Ideal.div (g (c + s + 2) - x) (g (c + s + 2) - g (c + 1)) * bspl g x s (c + 1)

/-- `x · σ(x)` with the logistic written out as `1 / (1 + e^{-x})`. -/
def silu (x : EReal) : EReal := x * Ideal.div one (one + Ideal.exp (-x))

/-- Row `k` of the knot table as a sequence (indices past the row wrap; only 0 … 11 are used). -/
def knot (G : (⟨2, ![4, 12]⟩ : Shape).Idx → EReal) (k : Fin 4) (j : ℕ) : EReal :=
  G (ix2 k ⟨j % 12, Nat.mod_lt _ (by decide)⟩)

/-- One window position: the base path plus the spline path over the window's four entries. -/
def cell (xs : Fin 4 → EReal) (g : Fin 4 → ℕ → EReal) (bw : Fin 4 → EReal) (w : Fin 4 → Fin 8 → EReal) : EReal :=
  (∑ k : Fin 4, silu (xs k) * bw k) + ∑ k : Fin 4, ∑ c : Fin 8, bspl (g k) (xs k) 3 c.val * w k c

/-- Entry `k` of the 2×2 window with corner (p, q) in channel `ch` of sample `b`: k = 2·(row) + (column). -/
def patch (X : (⟨4, ![8, 16, 128, 128]⟩ : Shape).Idx → EReal) (b : Fin 8) (ch : Fin 16) (p q : Fin 127) (k : Fin 4) : EReal :=
  X (ix4 b ch ⟨p.val + k.val / 2, by have := p.isLt; have := k.isLt; omega⟩ ⟨q.val + k.val % 2, by have := q.isLt; omega⟩)

/-- The layer: output (b, 0, p, q) is the sum over the channels of the window's value. -/
def layer (X : (⟨4, ![8, 16, 128, 128]⟩ : Shape).Idx → EReal) (BW : (⟨2, ![1, 4]⟩ : Shape).Idx → EReal)
    (SW : (⟨3, ![1, 4, 8]⟩ : Shape).Idx → EReal) (SS : (⟨2, ![1, 4]⟩ : Shape).Idx → EReal)
    (G : (⟨2, ![4, 12]⟩ : Shape).Idx → EReal) : (⟨4, ![8, 1, 127, 127]⟩ : Shape).Idx → EReal :=
  fun i => ∑ ch : Fin 16, cell (patch X (i 0) ch (i 2) (i 3)) (knot G) (fun k => BW (ix2 0 k))
    (fun k c => SW (ix3 0 k c) * SS (ix2 0 k))

/-- The 36 terms taken feature by feature, each feature's base term first and then its eight
    spline terms, starting from `z`. -/
def interleave {M : Type*} [Add M] (z : M) (a : Fin 4 → M) (b : Fin 4 → Fin 8 → M) : M :=
  ((((((((((((((((((((((((((((((((((((z
    + a 0) + b 0 0) + b 0 1) + b 0 2) + b 0 3) + b 0 4) + b 0 5) + b 0 6) + b 0 7)
    + a 1) + b 1 0) + b 1 1) + b 1 2) + b 1 3) + b 1 4) + b 1 5) + b 1 6) + b 1 7)
    + a 2) + b 2 0) + b 2 1) + b 2 2) + b 2 3) + b 2 4) + b 2 5) + b 2 6) + b 2 7)
    + a 3) + b 3 0) + b 3 1) + b 3 2) + b 3 3) + b 3 4) + b 3 5) + b 3 6) + b 3 7)

/-- Taking the terms feature by feature from zero gives the two sums added. -/
theorem interleave_zero {M : Type*} [AddCommMonoid M] (a : Fin 4 → M) (b : Fin 4 → Fin 8 → M) :
    interleave 0 a b = (∑ k : Fin 4, a k) + ∑ k : Fin 4, ∑ c : Fin 8, b k c := by
  unfold interleave
  simp only [Fin.sum_univ_four, Fin.sum_univ_eight, zero_add]
  ac_rfl

end Cert.KanConv

end
-- ==== Proof.LibScalarPick.lean ====
/-
  Two small readings that recur wherever a kernel handles scalars taken out of small vectors and
  masks turned into numbers.

  * A scalar that a kernel takes out of a vector as a one-element slice followed by the extraction of
    that slice's only element is the vector's entry at the slice's offset (ranks 1 and 2).
  * A one-bit word widened to 32 bits with zeros and converted as a SIGNED integer is the number 0 or 1
    that the bit read UNSIGNED is: the two ways a comparison's result becomes a float agree.
-/
import Idealize.ShloMosaic.PureOps.Ideal
import Idealize.ShloMosaic.Lib.ValueIdx

noncomputable section

namespace Cert.KanConv

open Idealize.ShloMosaic Idealize.ShloMosaic.ValueIdx

/-- A bit, zero-extended to 32 bits and read signed, is 0 or 1 as the bit says. -/
theorem bit_signed (b : BitVec 1) : (((b.setWidth 32).toInt : ℝ) : EReal) = ((b.toNat : ℝ) : EReal) := by
  have h : (b.setWidth 32).toInt = (b.toNat : ℤ) := by revert b; decide
  rw [h, Int.cast_natCast]

variable {α : Type}

/-- Entry (k, j) of a matrix, taken as a one-by-one slice and then its only element. -/
theorem pick2 {n0 n1 : Nat} (v : (⟨2, ![n0, n1]⟩ : Shape).Idx → α) (k j : Nat)
    (h : (⟨2, ![n0, n1]⟩ : Shape).Slices ![k, j] ⟨2, ![1, 1]⟩) (h' : ∀ a, (![0, 0] : Fin 2 → Nat) a < (⟨2, ![1, 1]⟩ : Shape).size a) :
    extractAt ![0, 0] (extractStridedSlice ⟨2, ![1, 1]⟩ ![k, j] v h) h'
      = v (ix2 ⟨k, by have hk : k + 1 ≤ n0 := h.2 0; omega⟩ ⟨j, by have hj : j + 1 ≤ n1 := h.2 1; omega⟩) := by
  unfold extractAt extractStridedSlice
  refine congrArg v (funext fun a => Fin.ext ?_)
  match a with
  | ⟨0, _⟩ => show k + 0 = k; rfl
  | ⟨1, _⟩ => show j + 0 = j; rfl

/-- Entry k of a vector, taken as a one-element slice and then its only element. -/
theorem pick1 {n0 : Nat} (v : (⟨1, ![n0]⟩ : Shape).Idx → α) (k : Nat)
    (h : (⟨1, ![n0]⟩ : Shape).Slices ![k] ⟨1, ![1]⟩) (h' : ∀ a, (![0] : Fin 1 → Nat) a < (⟨1, ![1]⟩ : Shape).size a) :
    extractAt ![0] (extractStridedSlice ⟨1, ![1]⟩ ![k] v h) h'
      = v (ix1 ⟨k, by have hk : k + 1 ≤ n0 := h.2 0; omega⟩) := by
  unfold extractAt extractStridedSlice
  refine congrArg v (funext fun a => Fin.ext ?_)
  match a with
  | ⟨0, _⟩ => show k + 0 = k; rfl

end Cert.KanConv

end
-- ==== Proof.Reads.lean ====
/-
  Readings used on the kernel's side of the KAN layer, at this kernel's shapes: the indicator of a knot
  interval in the kernel's spelling (compare twice, and, widen to 32 bits, convert signed) and in the
  reference's (convert the bit unsigned); the [1, 16, 128, 128] slab recast to [16, 128, 128] and cut to a
  127×127 window at an offset, read at an index; the [127, 127] tile recast to [1, 1, 127, 127]; the sum
  over the 16 channels, started from the zero word, as a plain sum.
-/
import proofs.«135303_j4466765988468_1_alg».proof.Proof.Spec
import proofs.«135303_j4466765988468_1_alg».proof.Proof.LibScalarPick
import Idealize.ShloMosaic.Lib.Pipeline.Value
import Idealize.ShloMosaic.PureOps.Ideal.Laws

noncomputable section

namespace Cert.KanConv

open Idealize.ShloMosaic Idealize.ShloMosaic.ValueIdx

/-- The kernel's spelling of the indicator: compare twice, and, widen, convert. -/
theorem ind_widened (x lo hi : EReal) :
    FloatOps.sitofp (F := Ideal) .f32 ((IntOp.andi (FloatOps.cmpf (F := Ideal) (φ := .f32) .oge x lo) (FloatOps.cmpf (F := Ideal) (φ := .f32) .olt x hi)).setWidth 32)
      = ind x lo hi :=
  bit_signed _

/-- The reference's spelling: compare twice, and, convert unsigned. -/
theorem ind_unsigned (x lo hi : EReal) :
    FloatOps.uitofp (F := Ideal) .f32 (IntOp.andi (FloatOps.cmpf (F := Ideal) (φ := .f32) .oge x lo) (FloatOps.cmpf (F := Ideal) (φ := .f32) .olt x hi))
      = ind x lo hi := rfl

variable {α : Type}

/-- A [1, 16, 128, 128] block recast to [16, 128, 128] and cut to the 127×127 window at offset (i, j),
    read at (ch, p, q): the block's entry (0, ch, p + i, q + j). -/
theorem window_read (v : (⟨4, ![1, 16, 128, 128]⟩ : Shape).Idx → α) (i j : Nat)
    (hc : (⟨4, ![1, 16, 128, 128]⟩ : Shape).ShapeCasts ⟨3, ![16, 128, 128]⟩)
    (hs : (⟨3, ![16, 128, 128]⟩ : Shape).Slices ![0, i, j] ⟨3, ![16, 127, 127]⟩) (ch : Fin 16) (p q : Fin 127) :
    extractStridedSlice ⟨3, ![16, 127, 127]⟩ ![0, i, j] (shapeCast ⟨3, ![16, 128, 128]⟩ v hc) hs (ix3 ch p q)
      = v (ix4 0 ch ⟨p.val + i, by have hi : i + 127 ≤ 128 := hs.2 1; have := p.isLt; omega⟩
          ⟨q.val + j, by have hj : j + 127 ≤ 128 := hs.2 2; have := q.isLt; omega⟩) := by
  have hi : i + 127 ≤ 128 := hs.2 1
  have hj : j + 127 ≤ 128 := hs.2 2
  have hp := p.isLt
  have hq := q.isLt
  rw [extractStridedSlice_apply _ _ hs (ix3 ch p q) (ix3 ch ⟨i + p.val, by omega⟩ ⟨j + q.val, by omega⟩)
    (fun a => by
      match a with
      | ⟨0, _⟩ => show ch.val = 0 + ch.val; omega
      | ⟨1, _⟩ => rfl
      | ⟨2, _⟩ => rfl)]
  refine shapeCast_apply _ hc _ _ ?_
  rw [Shape.rowMajor_val_four, Shape.rowMajor_val_three]
  show ((0 * 16 + ch.val) * 128 + (p.val + i)) * 128 + (q.val + j) = (ch.val * 128 + (i + p.val)) * 128 + (j + q.val)
  omega

/-- A [127, 127] vector recast to [1, 1, 127, 127], read at (0, 0, p, q). -/
theorem unit_axes_read (v : (⟨2, ![127, 127]⟩ : Shape).Idx → α)
    (hc : (⟨2, ![127, 127]⟩ : Shape).ShapeCasts ⟨4, ![1, 1, 127, 127]⟩) (p q : Fin 127) :
    shapeCast ⟨4, ![1, 1, 127, 127]⟩ v hc (ix4 0 0 p q) = v (ix2 p q) := by
  refine shapeCast_apply _ hc _ _ ?_
  rw [Shape.rowMajor_val_four, Shape.rowMajor_val_two]
  show p.val * 127 + q.val = ((0 * 1 + 0) * 127 + p.val) * 127 + q.val
  omega

/-- The sum over the 16 leading coordinates of a [16, 127, 127] vector, started from the zero word. -/
theorem channel_sum (v : FVec Ideal ⟨3, ![16, 127, 127]⟩ .f32)
    (h : (⟨3, ![16, 127, 127]⟩ : Shape).Reduces [0] ⟨2, ![127, 127]⟩) (hφ : FKind.Formats .f32)
    (hacc : (0x00000000#32 : BitVec 32) = 0x00000000#32) (p q : Fin 127) :
    multiReduction .add [0] ⟨2, ![127, 127]⟩ v 0x00000000#32 h hφ hacc (ix2 p q) = ∑ ch : Fin 16, v (ix3 ch p q) := by
  refine (Ideal.multiReduction_add_single v 0x00000000#32 h hφ hacc (ix2 p q)).trans ?_
  refine Finset.sum_congr rfl fun ch _ => congrArg v (funext fun a => Fin.ext ?_)
  match a with
  | ⟨0, _⟩ => rfl
  | ⟨1, _⟩ => rfl
  | ⟨2, _⟩ => rfl

end Cert.KanConv

end
-- ==== Proof.Body.lean ====
/-
  The kernel body's value at one output position.  One grid point holds one sample: the body loads the
  sample's [16, 128, 128] slab, the knot table, the base weights, the spline weights and their scalers,
  and stores a [127, 127] tile whose entry (p, q) is the sum over the 16 channels of the KAN cell of
  the 2×2 window with corner (p, q) in that channel.

  The body is straight-line elementwise code over [16, 127, 127] vectors: the four shifted copies of the
  slab are the window's four entries; for each entry the base term x · 1/(1 + e^{0 − x}) · bw_k is added
  to the accumulator, the eleven indicators [g_c ≤ x < g_{c+1}] are formed (compare twice, and, widen,
  convert), three rounds of the Cox–de Boor step turn them into eight cubic B-splines, and each is added
  to the accumulator times sw_{k,c} · ss_k; the channel axis is summed last.  Read at an index, every
  elementwise operation is the scalar operation on the operands at that index, every scalar the body
  picks out of a small vector is that vector's entry, and 0 − x is −x: what remains is, term for term, the
  specification's 36 terms taken feature by feature from zero.
-/
import proofs.«135303_j4466765988468_1_alg».proof.Proof.Gen.KernelIdeal.Frame
import proofs.«135303_j4466765988468_1_alg».proof.Proof.Reads
import Idealize.ShloMosaic.Lib.ValueLayout

noncomputable section

namespace Cert.KanConv.Body

open Cert.KernelIdeal Cert.KernelIdeal.Gen Cert.KanConv Idealize.ShloMosaic Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The exponential of a vector, read at an index. -/
theorem exp_apply {s : Shape} (a : FVec Ideal s .f32) (i : s.Idx) : exp a i = Ideal.exp (a i) := rfl
/-- The bitwise and of two integer vectors, read at an index. -/
theorem andi_apply {s : Shape} {w : Nat} (a b : IVec s w) (i : s.Idx) : andi a b i = IntOp.andi (a i) (b i) := rfl
/-- The zero word is the number 0. -/
theorem word_zero : Scalar.ofBits (F := Ideal) .f32 0x00000000#32 = (0 : EReal) := Ideal.ofBits_zero_f32
/-- The word of 1.0, kept as its pattern. -/
theorem word_one : Scalar.ofBits (F := Ideal) .f32 0x3F800000#32 = one := rfl

set_option maxHeartbeats 8000000 in
/-- Entry (0, 0, p, q) of what the body leaves in the output window's buffer, from the blocks it loaded. -/
theorem body_point (x0 : Vec Ideal S1x16x128x128 .f32) (x1 : Vec Ideal S4x12 .f32) (x2 : Vec Ideal S1x4 .f32)
    (x3 : Vec Ideal S1x4x8 .f32) (x4 : Vec Ideal S1x4 .f32) (p q : Fin 127) :
    out0_5 (F := Ideal) x0 x1 x2 x3 x4 (ix4 0 0 p q)
      = ∑ ch : Fin 16, cell
          (fun k => x0 (ix4 0 ch ⟨p.val + k.val / 2, by have := p.isLt; have := k.isLt; omega⟩ ⟨q.val + k.val % 2, by have := q.isLt; omega⟩))
          (knot x1) (fun k => x2 (ix2 0 k)) (fun k c => x3 (ix3 0 k c) * x4 (ix2 0 k)) := by
  unfold out0_5
  rw [View.canon_unit_zero hz4]
  simp only [View.ld_unit_zero (S := S1x16x128x128) hz4, View.ld_unit_zero (S := S4x12) hz2, View.ld_unit_zero (S := S1x4) hz2,
    View.ld_unit_zero (S := S1x4x8) hz3]
  -- the store's payload: the channel sum recast to [1, 1, 127, 127]
  unfold k0_pay1
  rw [unit_axes_read]
  unfold k0_pay280
  refine (channel_sum _ _ _ _ p q).trans ?_
  refine Finset.sum_congr rfl fun ch _ => ?_
  -- one channel: the accumulator at (ch, p, q) against the 36 terms taken feature by feature
  rw [cell, ← interleave_zero]
  unfold interleave
  simp only [k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119, k0_pay120, k0_pay121,
    k0_pay122, k0_pay123, k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143, k0_pay144, k0_pay145,
    k0_pay146, k0_pay147, k0_pay148, k0_pay149, k0_pay150, k0_pay151, k0_pay152, k0_pay153, k0_pay154, k0_pay155, k0_pay156, k0_pay157,
    k0_pay158, k0_pay159, k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179, k0_pay180, k0_pay181,
    k0_pay182, k0_pay183, k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203, k0_pay204, k0_pay205,
    k0_pay206, k0_pay207, k0_pay208, k0_pay209, k0_pay210, k0_pay211, k0_pay212, k0_pay213, k0_pay214, k0_pay215, k0_pay216, k0_pay217,
    k0_pay218, k0_pay219, k0_pay220, k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238, k0_pay239, k0_pay240, k0_pay241,
    k0_pay242, k0_pay243, k0_pay244, k0_pay245, k0_pay246, k0_pay247, k0_pay248, k0_pay249, k0_pay250, k0_pay251, k0_pay252, k0_pay253,
    k0_pay254, k0_pay255, k0_pay256, k0_pay257, k0_pay258, k0_pay259, k0_pay260, k0_pay261, k0_pay262, k0_pay263, k0_pay264, k0_pay265,
    k0_pay266, k0_pay267, k0_pay268, k0_pay269, k0_pay270, k0_pay271, k0_pay272, k0_pay273, k0_pay274, k0_pay275, k0_pay276, k0_pay277,
    k0_pay278, k0_pay279,
    mulf_apply, addf_apply, subf_apply, divf_apply, broadcast_apply, cmpf_apply, extui_apply, sitofp_apply, exp_apply, andi_apply,
    Ideal.scalar_subf_def, Ideal.scalar_mulf_def, word_zero, word_one, zero_sub,
    pick1, pick2, window_read, shapeCast_1a_a_apply, shapeCast_1ab_ab_apply, ind_widened,
    silu, bspl, knot, Nat.reduceAdd, Nat.reduceDiv, Nat.reduceMod]
  rfl

end Cert.KanConv.Body

end
-- ==== Proof.Array.lean ====
/-
  From the grid's tiles to the whole output array of the KAN convolution layer.

  The grid has one point per sample.  At point t the kernel is given sample t's slab
  [1, 16, 128, 128] of the input, the knot table, the base weights, the spline weights and their
  scalers whole, and it writes back the tile [1, 1, 127, 127] at position (t, 0, 0, 0) of the
  output.  A block's coordinate in its array is always (block index) × (block size) + (coordinate
  inside the block); the block indices are decided once over the eight points.

  So entry (0, 0, p, q) of the tile at point t — the sum over the channels of the KAN cell of the
  2×2 window with corner (p, q) of the slab — is entry (t, 0, p, q) of the layer of the whole
  arrays; the eight tiles cover the output (index i lies in the tile of point i₀); hence the
  output array after the run is the layer, and the five arguments are unchanged.
-/
import proofs.«135303_j4466765988468_1_alg».proof.Proof.Gen.KernelIdeal.Value
import proofs.«135303_j4466765988468_1_alg».proof.Proof.Spec
import proofs.«135303_j4466765988468_1_alg».proof.Proof.Body
import Idealize.ShloMosaic.Lib.Pipeline.Value
import Idealize.ShloMosaic.Lib.ValueIdx

noncomputable section

namespace Cert.KanConv.Array

open Cert.KernelIdeal Cert.KernelIdeal.Gen Cert.KanConv Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Where the blocks sit -/

/-- At grid point `t` the input's slab and the output's tile are block `t` along the sample axis
    and block 0 along the others; the four small arrays are taken whole (block 0 on every axis). -/
theorem block_index : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 4) = t.val ∧ win0_5.index t (1 : Fin 4) = 0 ∧ win0_5.index t (2 : Fin 4) = 0 ∧ win0_5.index t (3 : Fin 4) = 0) :=
  (by decide +kernel : ∀ t : Fin grid0.N, _)

/-! ## The input blocks as parts of the argument arrays -/

/-- Sample `t`'s slab: its entry `x` is the input's entry `k` whenever `k` is `x` moved to sample `t`. -/
theorem slab_at (c : Dev nD) (t : Fin cfg0.N) (x : S1x16x128x128.Idx) (k : S8x16x128x128.Idx)
    (hk0 : (k 0).val = t.val) (hk1 : (k 1).val = (x 1).val) (hk2 : (k 2).val = (x 2).val) (hk3 : (k 3).val = (x 3).val) :
    (iblk m c 0 t : Vec Ideal S1x16x128x128 .f32) x = (m ((c : Thread nD τ).loc main_arg0) : S8x16x128x128.Idx → Elt Ideal .f32) k := by
  obtain ⟨⟨e0, e1, e2, e3⟩, -⟩ := block_index t
  have hx0 : (x 0).val < 1 := (x 0).isLt
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * (x 0).val = (k 0).val; rw [e0, hk0]; omega
  | ⟨1, _⟩ => show win0_0.index t (1 : Fin 4) * 16 + 1 * (x 1).val = (k 1).val; rw [e1, hk1]; omega
  | ⟨2, _⟩ => show win0_0.index t (2 : Fin 4) * 128 + 1 * (x 2).val = (k 2).val; rw [e2, hk2]; omega
  | ⟨3, _⟩ => show win0_0.index t (3 : Fin 4) * 128 + 1 * (x 3).val = (k 3).val; rw [e3, hk3]; omega

/-- The same by coordinates: channel `ch`, row `p'`, column `q'` of the slab at point `t` is the
    input at (t, ch, p', q'). -/
theorem slab_coord (c : Dev nD) (t : Fin cfg0.N) (hb : t.val < 8) (ch : Fin 16) (p' q' : Fin 128) :
    (iblk m c 0 t : Vec Ideal S1x16x128x128 .f32) (ix4 0 ch p' q')
      = (m ((c : Thread nD τ).loc main_arg0) : S8x16x128x128.Idx → Elt Ideal .f32) (ix4 ⟨t.val, hb⟩ ch p' q') :=
  slab_at m c t _ _ rfl rfl rfl rfl

/-- The knot table's block is the whole table, at every point. -/
theorem knots_eq (c : Dev nD) (t : Fin cfg0.N) :
    (iblk m c 1 t : Vec Ideal S4x12 .f32) = (m ((c : Thread nD τ).loc main_arg4) : S4x12.Idx → Elt Ideal .f32) := by
  obtain ⟨-, ⟨e0, e1⟩, -⟩ := block_index t
  funext x
  unfold iblk
  rw [View.read_apply]
  show V m c main_arg4 _ = m (c.tc.loc main_arg4) _
  unfold V
  congr 1
  funext a
  apply Fin.ext
  match a with
  | ⟨0, _⟩ => show win0_1.index t (0 : Fin 2) * 4 + 1 * (x 0).val = (x 0).val; rw [e0]; omega
  | ⟨1, _⟩ => show win0_1.index t (1 : Fin 2) * 12 + 1 * (x 1).val = (x 1).val; rw [e1]; omega

/-- The base weights' block is the whole row. -/
theorem base_eq (c : Dev nD) (t : Fin cfg0.N) :
    (iblk m c 2 t : Vec Ideal S1x4 .f32) = (m ((c : Thread nD τ).loc main_arg1) : S1x4.Idx → Elt Ideal .f32) := by
  obtain ⟨-, -, ⟨e0, e1⟩, -⟩ := block_index t
  funext x
  unfold iblk
  rw [View.read_apply]
  show V m c main_arg1 _ = m (c.tc.loc main_arg1) _
  unfold V
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 4 + 1 * (x 1).val = (x 1).val; rw [e1]; omega

/-- The spline weights' block is the whole array. -/
theorem spline_eq (c : Dev nD) (t : Fin cfg0.N) :
    (iblk m c 3 t : Vec Ideal S1x4x8 .f32) = (m ((c : Thread nD τ).loc main_arg2) : S1x4x8.Idx → Elt Ideal .f32) := by
  obtain ⟨-, -, -, ⟨e0, e1, e2⟩, -⟩ := block_index t
  funext x
  unfold iblk
  rw [View.read_apply]
  show V m c main_arg2 _ = m (c.tc.loc main_arg2) _
  unfold V
  congr 1
  funext a
  apply Fin.ext
  match a with
  | ⟨0, _⟩ => show win0_3.index t (0 : Fin 3) * 1 + 1 * (x 0).val = (x 0).val; rw [e0]; omega
  | ⟨1, _⟩ => show win0_3.index t (1 : Fin 3) * 4 + 1 * (x 1).val = (x 1).val; rw [e1]; omega
  | ⟨2, _⟩ => show win0_3.index t (2 : Fin 3) * 8 + 1 * (x 2).val = (x 2).val; rw [e2]; omega

/-- The scalers' block is the whole row. -/
theorem scaler_eq (c : Dev nD) (t : Fin cfg0.N) :
    (iblk m c 4 t : Vec Ideal S1x4 .f32) = (m ((c : Thread nD τ).loc main_arg3) : S1x4.Idx → Elt Ideal .f32) := by
  obtain ⟨-, -, -, -, ⟨e0, e1⟩, -⟩ := block_index t
  funext x
  unfold iblk
  rw [View.read_apply]
  show V m c main_arg3 _ = m (c.tc.loc main_arg3) _
  unfold V
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 4 + 1 * (x 1).val = (x 1).val; rw [e1]; omega

/-! ## One entry of a tile -/

/-- If the slab `x0` is sample `b` of `X`, the tile the body computes from `x0` and the four small arrays has,
    at `y = (0, 0, p, q)`, the layer's entry at `i = (b, 0, p, q)`: both are the sum over the channels of the
    cell of the window with corner (p, q), the window's entries read in the slab and in `X` alike. -/
theorem tile_entry (X : S8x16x128x128.Idx → EReal) (BW : S1x4.Idx → EReal) (SW : S1x4x8.Idx → EReal)
    (SS : S1x4.Idx → EReal) (G : S4x12.Idx → EReal)
    (x0 : Vec Ideal S1x16x128x128 .f32) (x1 : Vec Ideal S4x12 .f32) (x2 : Vec Ideal S1x4 .f32)
    (x3 : Vec Ideal S1x4x8 .f32) (x4 : Vec Ideal S1x4 .f32) (b : Fin 8)
    (h0 : ∀ (ch : Fin 16) (p' q' : Fin 128), x0 (ix4 0 ch p' q') = X (ix4 b ch p' q'))
    (h1 : x1 = G) (h2 : x2 = BW) (h3 : x3 = SW) (h4 : x4 = SS)
    (y : S1x1x127x127.Idx) (i : S8x1x127x127.Idx)
    (hi0 : (i 0).val = b.val) (hi2 : (i 2).val = (y 2).val) (hi3 : (i 3).val = (y 3).val) :
    out0_5 (F := Ideal) x0 x1 x2 x3 x4 y = layer X BW SW SS G i := by
  subst h1 h2 h3 h4
  obtain ⟨y0, y1, p, q, rfl⟩ : ∃ (y0 y1 : Fin 1) (p q : Fin 127), y = ix4 y0 y1 p q := ⟨y 0, y 1, y 2, y 3, eq_ix4 y⟩
  obtain rfl : y0 = 0 := Subsingleton.elim _ _
  obtain rfl : y1 = 0 := Subsingleton.elim _ _
  have e0 : i 0 = b := Fin.ext hi0
  have e2 : i 2 = p := Fin.ext hi2
  have e3 : i 3 = q := Fin.ext hi3
  rw [Body.body_point]
  unfold layer
  rw [e0, e2, e3]
  refine Finset.sum_congr rfl fun ch _ => ?_
  have ea : (fun k : Fin 4 => x0 (ix4 0 ch ⟨p.val + k.val / 2, by have := p.isLt; have := k.isLt; omega⟩ ⟨q.val + k.val % 2, by have := q.isLt; omega⟩))
      = patch X b ch p q := funext fun k => h0 ch _ _
  rw [ea]

/-! ## What a point writes back -/

/-- The tile point `t` writes back is block `t` of the layer of the argument arrays. -/
theorem flushed_eq (c : Dev nD) (t : Fin cfg0.N) :
    (dats m 0 c).flushed 5 t = ((cfg0.win 5).blk t).view.read (Elt Ideal)
      (layer (m ((c : Thread nD τ).loc main_arg0)) (m ((c : Thread nD τ).loc main_arg1)) (m ((c : Thread nD τ).loc main_arg2))
        (m ((c : Thread nD τ).loc main_arg3)) (m ((c : Thread nD τ).loc main_arg4))) := by
  have hb : t.val < 8 := lt_of_lt_of_eq t.isLt N_0
  obtain ⟨-, -, -, -, -, e0, e1, e2, e3⟩ := block_index t
  rw [Value.flushed5]
  funext j
  have hj0 : (j 0).val < 1 := (j 0).isLt
  show out0_5 (F := Ideal) (iblk m c 0 t) (iblk m c 1 t) (iblk m c 2 t) (iblk m c 3 t) (iblk m c 4 t) ((cfg0.win 5).xinj (grid0.coords t) j)
    = layer (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb j)
  refine tile_entry _ _ _ _ _ _ _ _ _ _ ⟨t.val, hb⟩ (fun ch p' q' => slab_coord m c t hb ch p' q')
    (knots_eq m c t) (base_eq m c t) (spline_eq m c t) (scaler_eq m c t) _ _ ?_ ?_ ?_
  · show win0_5.index t (0 : Fin 4) * 1 + 1 * (j 0).val = t.val
    rw [e0]; omega
  · show win0_5.index t (2 : Fin 4) * 127 + 1 * (j 2).val = (j 2).val
    rw [e2]; omega
  · show win0_5.index t (3 : Fin 4) * 127 + 1 * (j 3).val = (j 3).val
    rw [e3]; omega

/-! ## The tiles cover the output -/

/-- An index of the output is in point `t`'s tile iff each coordinate is in the tile's range on its axis. -/
theorem mem_blk (t : Fin cfg0.N) (i : S8x1x127x127.Idx) :
    i ∈ ((cfg0.win 5).blk t).view.set ↔ ∀ a : Fin 4, win0_5.index t a * S1x1x127x127.size a ≤ (i a).val ∧ (i a).val < win0_5.index t a * S1x1x127x127.size a + S1x1x127x127.size a := by
  show i ∈ ((View.whole main_v0).slice (win0_5.rect t)).set ↔ _
  rw [View.set_slice_whole, Rect.mem_set_unit]
  exact Iff.rfl

/-- Every index `i` of the output lies in the tile of the point of its sample, `t = i₀`, which writes back. -/
theorem cover (i : S8x1x127x127.Idx) :
    ∃ t : Fin cfg0.N, (cfg0.win 5).flush t = true ∧ i ∈ ((cfg0.win 5).blk t).view.set := by
  have h0 : (i 0).val < 8 := (i 0).isLt
  have h1 : (i 1).val < 1 := (i 1).isLt
  have h2 : (i 2).val < 127 := (i 2).isLt
  have h3 : (i 3).val < 127 := (i 3).isLt
  have hN : (i 0).val < cfg0.N := by show (i 0).val < grid0.N; rw [N_0]; exact h0
  refine ⟨⟨(i 0).val, hN⟩, flush0_5 _, ?_⟩
  rw [mem_blk]
  obtain ⟨-, -, -, -, -, e0', e1, e2, e3⟩ := block_index ⟨(i 0).val, hN⟩
  have e0 : win0_5.index ⟨(i 0).val, hN⟩ (0 : Fin 4) = (i 0).val := e0'
  intro a
  match a with
  | ⟨0, _⟩ => show win0_5.index ⟨(i 0).val, hN⟩ (0 : Fin 4) * 1 ≤ (i 0).val ∧ (i 0).val < win0_5.index ⟨(i 0).val, hN⟩ (0 : Fin 4) * 1 + 1; rw [e0]; omega
  | ⟨1, _⟩ => show win0_5.index ⟨(i 0).val, hN⟩ (1 : Fin 4) * 1 ≤ (i 1).val ∧ (i 1).val < win0_5.index ⟨(i 0).val, hN⟩ (1 : Fin 4) * 1 + 1; rw [e1]; omega
  | ⟨2, _⟩ => show win0_5.index ⟨(i 0).val, hN⟩ (2 : Fin 4) * 127 ≤ (i 2).val ∧ (i 2).val < win0_5.index ⟨(i 0).val, hN⟩ (2 : Fin 4) * 127 + 127; rw [e2]; omega
  | ⟨3, _⟩ => show win0_5.index ⟨(i 0).val, hN⟩ (3 : Fin 4) * 127 ≤ (i 3).val ∧ (i 3).val < win0_5.index ⟨(i 0).val, hN⟩ (3 : Fin 4) * 127 + 127; rw [e3]; omega

/-! ## The output array, and the run -/

/-- After the last point the output array is the layer of the argument arrays: every tile is its block of the
    layer and the tiles cover the array. -/
theorem final (c : Dev nD) :
    (dats m 0 c).arrAt 5 cfg0.N
      = layer (m ((c : Thread nD τ).loc main_arg0)) (m ((c : Thread nD τ).loc main_arg1)) (m ((c : Thread nD τ).loc main_arg2))
          (m ((c : Thread nD τ).loc main_arg3)) (m ((c : Thread nD τ).loc main_arg4)) :=
  (dats m 0 c).arrAt_eq_of_cover 5 _ (fun t _ => flushed_eq m c t) cover

/-- The run: every execution terminates with the output at the layer of the arguments and the arguments unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KanConv.Array

end
-- ==== Proof.RefSpline.lean ====
/-
  The reference's B-spline bases, read at an index.

  With x the entry in row n and column k of the flattened windows (kept as it is: what that
  entry is in terms of the input is not needed here) and g row k of the knot table, element
  (n, k, c) of the basis of degree s is the B-spline B^s_c(x) of the Cox–de Boor recursion
    B⁰_c(x) = [g_c ≤ x < g_{c+1}],
    B^{s+1}_c(x) = (x − g_c)/(g_{c+s+1} − g_c) · B^s_c(x) + (g_{c+s+2} − x)/(g_{c+s+2} − g_{c+1}) · B^s_{c+1}(x),
  for s = 0, 1, 2, 3 on 11, 10, 9, 8 splines.  Each level is read off the program's operations:
  slices of the knot table broadcast over the rows, differences, the machine's quotients,
  products with the two slices of the level before, and their sum.
-/
import proofs.«135303_j4466765988468_1_alg».proof.Proof.Gen.ReferenceIdeal.Read
import proofs.«135303_j4466765988468_1_alg».proof.Proof.Spec
import Idealize.ShloMosaic.Lib.ValueIdx
import Idealize.ShloMosaic.PureOps.Ideal.Laws

noncomputable section

namespace Cert.KanConv.Ref

open Cert.ReferenceIdeal Cert.ReferenceIdeal.Read Idealize.ShloMosaic Idealize.ShloMosaic.ValueIdx Idealize.ShloMosaic.StableHlo

/-! ## Preliminaries: indices by coordinates, reads of the knot table, the recursion's two equations -/

/-- A rank-2 index with coordinates a, b is `ix2 a b`. -/
theorem ix2_ext {n0 n1 : Nat} {j : (⟨2, ![n0, n1]⟩ : Shape).Idx} {a : Fin n0} {b : Fin n1}
    (h0 : j 0 = a) (h1 : j 1 = b) : j = ix2 a b := by
  subst h0 h1; exact eq_ix2 j

/-- A rank-3 index with coordinates a, b, c is `ix3 a b c`. -/
theorem ix3_ext {n0 n1 n2 : Nat} {j : (⟨3, ![n0, n1, n2]⟩ : Shape).Idx} {a : Fin n0} {b : Fin n1} {c : Fin n2}
    (h0 : j 0 = a) (h1 : j 1 = b) (h2 : j 2 = c) : j = ix3 a b c := by
  subst h0 h1 h2; exact eq_ix3 j

/-- The knot table read at row k and a column j below 12 is entry j of row k's knot sequence. -/
theorem knot_read (G : (⟨2, ![4, 12]⟩ : Shape).Idx → EReal) (k : Fin 4) (j : ℕ)
    (i : (⟨2, ![4, 12]⟩ : Shape).Idx) (h0 : i 0 = k) (h1 : (i 1).val = j) : G i = knot G k j := by
  have hj : j < 12 := h1 ▸ (i 1).isLt
  unfold knot
  congr 1
  refine ix2_ext h0 (Fin.ext ?_)
  show (i 1).val = j % 12
  rw [h1, Nat.mod_eq_of_lt hj]

/-- Degree 0: the indicator of the knot interval. -/
theorem bspl_zero (g : ℕ → EReal) (x : EReal) (c : ℕ) : bspl g x 0 c = ind x (g c) (g (c + 1)) := rfl

/-- The recursion step, from degree s to degree s + 1. -/
theorem bspl_succ (g : ℕ → EReal) (x : EReal) (s c : ℕ) :
    bspl g x (s + 1) c = Ideal.div (x - g c) (g (c + s + 1) - g c) * bspl g x s c
      + Ideal.div (g (c + s + 2) - x) (g (c + s + 2) - g (c + 1)) * bspl g x s (c + 1) := rfl

/-! ## Degree 0: 11 indicators

  Element (n, k, c) is the indicator of  g_c ≤ x < g_{c+1}  as the number 0 or 1: the two
  comparisons against the table's slices at columns c and c+1, their conjunction, and the
  conversion of that bit. -/

/-- The window entry broadcast along the 11 intervals. -/
theorem v16_at (x0 : (⟨S8x16x128x128, .f32⟩ : BufTy).Contents (Elt Ideal)) (n : Fin 2064512) (k : Fin 4) (c : Fin 11) :
    val_main_v16 (F := Ideal) x0 (ix3 n k c) = val_main_v9 (F := Ideal) x0 (ix2 n k) := by
  rw [val_main_v16_apply, val_main_v13_apply]
  exact congrArg (val_main_v9 (F := Ideal) x0) (ix2_ext rfl rfl)

/-- The same, for the second comparison. -/
theorem v21_at (x0 : (⟨S8x16x128x128, .f32⟩ : BufTy).Contents (Elt Ideal)) (n : Fin 2064512) (k : Fin 4) (c : Fin 11) :
    val_main_v21 (F := Ideal) x0 (ix3 n k c) = val_main_v9 (F := Ideal) x0 (ix2 n k) := by
  rw [val_main_v21_apply, val_main_v13_apply]
  exact congrArg (val_main_v9 (F := Ideal) x0) (ix2_ext rfl rfl)

/-- The left ends of the intervals: knots 0 … 10 of row k. -/
theorem v17_at (x4 : (⟨S4x12, .f32⟩ : BufTy).Contents (Elt Ideal)) (n : Fin 2064512) (k : Fin 4) (c : Fin 11) :
    val_main_v17 (F := Ideal) x4 (ix3 n k c) = knot x4 k c.val := by
  rw [val_main_v17_apply, val_main_v15_apply, val_main_v14_apply]
  exact knot_read _ _ _ _ rfl rfl

/-- The right ends of the intervals: knots 1 … 11 of row k. -/
theorem v22_at (x4 : (⟨S4x12, .f32⟩ : BufTy).Contents (Elt Ideal)) (n : Fin 2064512) (k : Fin 4) (c : Fin 11) :
    val_main_v22 (F := Ideal) x4 (ix3 n k c) = knot x4 k (c.val + 1) := by
  rw [val_main_v22_apply, val_main_v20_apply, val_main_v19_apply]
  exact knot_read _ _ _ _ rfl (Nat.add_comm 1 c.val)

/-- Element (n, k, c) of the degree-0 basis is the degree-0 B-spline c on row k's knots at the window entry. -/
theorem spline_level0 (x0 : (⟨S8x16x128x128, .f32⟩ : BufTy).Contents (Elt Ideal)) (x4 : (⟨S4x12, .f32⟩ : BufTy).Contents (Elt Ideal))
    (n : Fin 2064512) (k : Fin 4) (c : Fin 11) :
    val_main_v25 (F := Ideal) x0 x4 (ix3 n k c) = bspl (knot x4 k) (val_main_v9 (F := Ideal) x0 (ix2 n k)) 0 c.val := by
  rw [val_main_v25_apply, val_main_v24_apply, val_main_v18_apply, val_main_v23_apply, v16_at, v17_at, v21_at, v22_at]
  rfl

/-! ## Degree 1: 10 splines

  B1_c(x) = (x − g_c)/(g_{c+1} − g_c) · B0_c(x) + (g_{c+2} − x)/(g_{c+2} − g_{c+1}) · B0_{c+1}(x):
  the left quotient's knots are the table's slices at columns c and c+1, the right quotient's
  at columns c+2 and c+1; the two factors are the degree-0 basis sliced at c and at c+1. -/

/-- The left numerator: the window entry minus knot c. -/
theorem v30_at (x0 : (⟨S8x16x128x128, .f32⟩ : BufTy).Contents (Elt Ideal)) (x4 : (⟨S4x12, .f32⟩ : BufTy).Contents (Elt Ideal))
    (n : Fin 2064512) (k : Fin 4) (c : Fin 10) :
    val_main_v30 (F := Ideal) x0 x4 (ix3 n k c) = val_main_v9 (F := Ideal) x0 (ix2 n k) - knot x4 k c.val := by
  rw [val_main_v30_apply, val_main_v28_apply, val_main_v13_apply, val_main_v29_apply, val_main_v27_apply, val_main_v26_apply]
  exact congrArg₂ (· - ·) (congrArg (val_main_v9 (F := Ideal) x0) (ix2_ext rfl rfl)) (knot_read _ _ _ _ rfl rfl)

/-- The left denominator: knot c+1 minus knot c. -/
theorem v35_at (x4 : (⟨S4x12, .f32⟩ : BufTy).Contents (Elt Ideal)) (n : Fin 2064512) (k : Fin 4) (c : Fin 10) :
    val_main_v35 (F := Ideal) x4 (ix3 n k c) = knot x4 k (c.val + 0 + 1) - knot x4 k c.val := by
  rw [val_main_v35_apply, val_main_v34_apply, val_main_v33_apply, val_main_v31_apply, val_main_v32_apply]
  exact congrArg₂ (· - ·) (knot_read _ _ _ _ rfl (by show 1 + c.val = c.val + 0 + 1; omega))
    (knot_read _ _ _ _ rfl rfl)

/-- The right numerator: knot c+2 minus the window entry. -/
theorem v41_at (x0 : (⟨S8x16x128x128, .f32⟩ : BufTy).Contents (Elt Ideal)) (x4 : (⟨S4x12, .f32⟩ : BufTy).Contents (Elt Ideal))
    (n : Fin 2064512) (k : Fin 4) (c : Fin 10) :
    val_main_v41 (F := Ideal) x0 x4 (ix3 n k c) = knot x4 k (c.val + 0 + 2) - val_main_v9 (F := Ideal) x0 (ix2 n k) := by
  rw [val_main_v41_apply, val_main_v39_apply, val_main_v38_apply, val_main_v37_apply, val_main_v40_apply, val_main_v13_apply]
  exact congrArg₂ (· - ·) (knot_read _ _ _ _ rfl (by show 2 + c.val = c.val + 0 + 2; omega))
    (congrArg (val_main_v9 (F := Ideal) x0) (ix2_ext rfl rfl))

/-- The right denominator: knot c+2 minus knot c+1. -/
theorem v46_at (x4 : (⟨S4x12, .f32⟩ : BufTy).Contents (Elt Ideal)) (n : Fin 2064512) (k : Fin 4) (c : Fin 10) :
    val_main_v46 (F := Ideal) x4 (ix3 n k c) = knot x4 k (c.val + 0 + 2) - knot x4 k (c.val + 1) := by
  rw [val_main_v46_apply, val_main_v45_apply, val_main_v44_apply, val_main_v42_apply, val_main_v43_apply]
  exact congrArg₂ (· - ·) (knot_read _ _ _ _ rfl (by show 2 + c.val = c.val + 0 + 2; omega))
    (knot_read _ _ _ _ rfl (Nat.add_comm 1 c.val))

/-- The degree-0 basis sliced at c … -/
theorem v48_at (x0 : (⟨S8x16x128x128, .f32⟩ : BufTy).Contents (Elt Ideal)) (x4 : (⟨S4x12, .f32⟩ : BufTy).Contents (Elt Ideal))
    (n : Fin 2064512) (k : Fin 4) (c : Fin 10) :
    val_main_v48 (F := Ideal) x0 x4 (ix3 n k c) = bspl (knot x4 k) (val_main_v9 (F := Ideal) x0 (ix2 n k)) 0 c.val := by
  have hc := c.isLt
  rw [val_main_v48_apply, show idx_main_v48 (ix3 n k c) = ix3 n k (⟨c.val, by omega⟩ : Fin 11) from ix3_ext rfl rfl rfl,
    spline_level0]

/-- … and at c+1. -/
theorem v50_at (x0 : (⟨S8x16x128x128, .f32⟩ : BufTy).Contents (Elt Ideal)) (x4 : (⟨S4x12, .f32⟩ : BufTy).Contents (Elt Ideal))
    (n : Fin 2064512) (k : Fin 4) (c : Fin 10) :
    val_main_v50 (F := Ideal) x0 x4 (ix3 n k c) = bspl (knot x4 k) (val_main_v9 (F := Ideal) x0 (ix2 n k)) 0 (c.val + 1) := by
  have hc := c.isLt
  rw [val_main_v50_apply, show idx_main_v50 (ix3 n k c) = ix3 n k (⟨c.val + 1, by omega⟩ : Fin 11) from
      ix3_ext rfl rfl (Fin.ext (Nat.add_comm 1 c.val)),
    spline_level0]

/-- Element (n, k, c) of the degree-1 basis is the degree-1 B-spline c on row k's knots at the window entry. -/
theorem spline_level1 (x0 : (⟨S8x16x128x128, .f32⟩ : BufTy).Contents (Elt Ideal)) (x4 : (⟨S4x12, .f32⟩ : BufTy).Contents (Elt Ideal))
    (n : Fin 2064512) (k : Fin 4) (c : Fin 10) :
    val_main_v52 (F := Ideal) x0 x4 (ix3 n k c) = bspl (knot x4 k) (val_main_v9 (F := Ideal) x0 (ix2 n k)) 1 c.val := by
  rw [val_main_v52_apply, val_main_v49_apply, val_main_v51_apply, val_main_v36_apply, val_main_v47_apply, v30_at, v35_at, v41_at, v46_at,
    v48_at, v50_at]
  exact (bspl_succ (knot x4 k) (val_main_v9 (F := Ideal) x0 (ix2 n k)) 0 c.val).symm

/-! ## Degree 2: 9 splines

  B2_c(x) = (x − g_c)/(g_{c+2} − g_c) · B1_c(x) + (g_{c+3} − x)/(g_{c+3} − g_{c+1}) · B1_{c+1}(x):
  the left quotient's knots are the table's slices at columns c and c+2, the right quotient's
  at columns c+3 and c+1; the two factors are the degree-1 basis sliced at c and at c+1. -/

/-- The left numerator: the window entry minus knot c. -/
theorem v57_at (x0 : (⟨S8x16x128x128, .f32⟩ : BufTy).Contents (Elt Ideal)) (x4 : (⟨S4x12, .f32⟩ : BufTy).Contents (Elt Ideal))
    (n : Fin 2064512) (k : Fin 4) (c : Fin 9) :
    val_main_v57 (F := Ideal) x0 x4 (ix3 n k c) = val_main_v9 (F := Ideal) x0 (ix2 n k) - knot x4 k c.val := by
  rw [val_main_v57_apply, val_main_v55_apply, val_main_v13_apply, val_main_v56_apply, val_main_v54_apply, val_main_v53_apply]
  exact congrArg₂ (· - ·) (congrArg (val_main_v9 (F := Ideal) x0) (ix2_ext rfl rfl)) (knot_read _ _ _ _ rfl rfl)

/-- The left denominator: knot c+2 minus knot c. -/
theorem v62_at (x4 : (⟨S4x12, .f32⟩ : BufTy).Contents (Elt Ideal)) (n : Fin 2064512) (k : Fin 4) (c : Fin 9) :
    val_main_v62 (F := Ideal) x4 (ix3 n k c) = knot x4 k (c.val + 1 + 1) - knot x4 k c.val := by
  rw [val_main_v62_apply, val_main_v61_apply, val_main_v60_apply, val_main_v58_apply, val_main_v59_apply]
  exact congrArg₂ (· - ·) (knot_read _ _ _ _ rfl (by show 2 + c.val = c.val + 1 + 1; omega))
    (knot_read _ _ _ _ rfl rfl)

/-- The right numerator: knot c+3 minus the window entry. -/
theorem v68_at (x0 : (⟨S8x16x128x128, .f32⟩ : BufTy).Contents (Elt Ideal)) (x4 : (⟨S4x12, .f32⟩ : BufTy).Contents (Elt Ideal))
    (n : Fin 2064512) (k : Fin 4) (c : Fin 9) :
    val_main_v68 (F := Ideal) x0 x4 (ix3 n k c) = knot x4 k (c.val + 1 + 2) - val_main_v9 (F := Ideal) x0 (ix2 n k) := by
  rw [val_main_v68_apply, val_main_v66_apply, val_main_v65_apply, val_main_v64_apply, val_main_v67_apply, val_main_v13_apply]
  exact congrArg₂ (· - ·) (knot_read _ _ _ _ rfl (by show 3 + c.val = c.val + 1 + 2; omega))
    (congrArg (val_main_v9 (F := Ideal) x0) (ix2_ext rfl rfl))

/-- The right denominator: knot c+3 minus knot c+1. -/
theorem v73_at (x4 : (⟨S4x12, .f32⟩ : BufTy).Contents (Elt Ideal)) (n : Fin 2064512) (k : Fin 4) (c : Fin 9) :
    val_main_v73 (F := Ideal) x4 (ix3 n k c) = knot x4 k (c.val + 1 + 2) - knot x4 k (c.val + 1) := by
  rw [val_main_v73_apply, val_main_v72_apply, val_main_v71_apply, val_main_v69_apply, val_main_v70_apply]
  exact congrArg₂ (· - ·) (knot_read _ _ _ _ rfl (by show 3 + c.val = c.val + 1 + 2; omega))
    (knot_read _ _ _ _ rfl (Nat.add_comm 1 c.val))

/-- The degree-1 basis sliced at c … -/
theorem v75_at (x0 : (⟨S8x16x128x128, .f32⟩ : BufTy).Contents (Elt Ideal)) (x4 : (⟨S4x12, .f32⟩ : BufTy).Contents (Elt Ideal))
    (n : Fin 2064512) (k : Fin 4) (c : Fin 9) :
    val_main_v75 (F := Ideal) x0 x4 (ix3 n k c) = bspl (knot x4 k) (val_main_v9 (F := Ideal) x0 (ix2 n k)) 1 c.val := by
  have hc := c.isLt
  rw [val_main_v75_apply, show idx_main_v75 (ix3 n k c) = ix3 n k (⟨c.val, by omega⟩ : Fin 10) from ix3_ext rfl rfl rfl,
    spline_level1]

/-- … and at c+1. -/
theorem v77_at (x0 : (⟨S8x16x128x128, .f32⟩ : BufTy).Contents (Elt Ideal)) (x4 : (⟨S4x12, .f32⟩ : BufTy).Contents (Elt Ideal))
    (n : Fin 2064512) (k : Fin 4) (c : Fin 9) :
    val_main_v77 (F := Ideal) x0 x4 (ix3 n k c) = bspl (knot x4 k) (val_main_v9 (F := Ideal) x0 (ix2 n k)) 1 (c.val + 1) := by
  have hc := c.isLt
  rw [val_main_v77_apply, show idx_main_v77 (ix3 n k c) = ix3 n k (⟨c.val + 1, by omega⟩ : Fin 10) from
      ix3_ext rfl rfl (Fin.ext (Nat.add_comm 1 c.val)),
    spline_level1]

/-- Element (n, k, c) of the degree-2 basis is the degree-2 B-spline c on row k's knots at the window entry. -/
theorem spline_level2 (x0 : (⟨S8x16x128x128, .f32⟩ : BufTy).Contents (Elt Ideal)) (x4 : (⟨S4x12, .f32⟩ : BufTy).Contents (Elt Ideal))
    (n : Fin 2064512) (k : Fin 4) (c : Fin 9) :
    val_main_v79 (F := Ideal) x0 x4 (ix3 n k c) = bspl (knot x4 k) (val_main_v9 (F := Ideal) x0 (ix2 n k)) 2 c.val := by
  rw [val_main_v79_apply, val_main_v76_apply, val_main_v78_apply, val_main_v63_apply, val_main_v74_apply, v57_at, v62_at, v68_at, v73_at,
    v75_at, v77_at]
  exact (bspl_succ (knot x4 k) (val_main_v9 (F := Ideal) x0 (ix2 n k)) 1 c.val).symm

/-! ## Degree 3: 8 splines

  B3_c(x) = (x − g_c)/(g_{c+3} − g_c) · B2_c(x) + (g_{c+4} − x)/(g_{c+4} − g_{c+1}) · B2_{c+1}(x):
  the left quotient's knots are the table's slices at columns c and c+3, the right quotient's
  at columns c+4 and c+1; the two factors are the degree-2 basis sliced at c and at c+1. -/

/-- The left numerator: the window entry minus knot c. -/
theorem v84_at (x0 : (⟨S8x16x128x128, .f32⟩ : BufTy).Contents (Elt Ideal)) (x4 : (⟨S4x12, .f32⟩ : BufTy).Contents (Elt Ideal))
    (n : Fin 2064512) (k : Fin 4) (c : Fin 8) :
    val_main_v84 (F := Ideal) x0 x4 (ix3 n k c) = val_main_v9 (F := Ideal) x0 (ix2 n k) - knot x4 k c.val := by
  rw [val_main_v84_apply, val_main_v82_apply, val_main_v13_apply, val_main_v83_apply, val_main_v81_apply, val_main_v80_apply]
  exact congrArg₂ (· - ·) (congrArg (val_main_v9 (F := Ideal) x0) (ix2_ext rfl rfl)) (knot_read _ _ _ _ rfl rfl)

/-- The left denominator: knot c+3 minus knot c. -/
theorem v89_at (x4 : (⟨S4x12, .f32⟩ : BufTy).Contents (Elt Ideal)) (n : Fin 2064512) (k : Fin 4) (c : Fin 8) :
    val_main_v89 (F := Ideal) x4 (ix3 n k c) = knot x4 k (c.val + 2 + 1) - knot x4 k c.val := by
  rw [val_main_v89_apply, val_main_v88_apply, val_main_v87_apply, val_main_v85_apply, val_main_v86_apply]
  exact congrArg₂ (· - ·) (knot_read _ _ _ _ rfl (by show 3 + c.val = c.val + 2 + 1; omega))
    (knot_read _ _ _ _ rfl rfl)

/-- The right numerator: knot c+4 minus the window entry. -/
theorem v95_at (x0 : (⟨S8x16x128x128, .f32⟩ : BufTy).Contents (Elt Ideal)) (x4 : (⟨S4x12, .f32⟩ : BufTy).Contents (Elt Ideal))
    (n : Fin 2064512) (k : Fin 4) (c : Fin 8) :
    val_main_v95 (F := Ideal) x0 x4 (ix3 n k c) = knot x4 k (c.val + 2 + 2) - val_main_v9 (F := Ideal) x0 (ix2 n k) := by
  rw [val_main_v95_apply, val_main_v93_apply, val_main_v92_apply, val_main_v91_apply, val_main_v94_apply, val_main_v13_apply]
  exact congrArg₂ (· - ·) (knot_read _ _ _ _ rfl (by show 4 + c.val = c.val + 2 + 2; omega))
    (congrArg (val_main_v9 (F := Ideal) x0) (ix2_ext rfl rfl))

/-- The right denominator: knot c+4 minus knot c+1. -/
theorem v100_at (x4 : (⟨S4x12, .f32⟩ : BufTy).Contents (Elt Ideal)) (n : Fin 2064512) (k : Fin 4) (c : Fin 8) :
    val_main_v100 (F := Ideal) x4 (ix3 n k c) = knot x4 k (c.val + 2 + 2) - knot x4 k (c.val + 1) := by
  rw [val_main_v100_apply, val_main_v99_apply, val_main_v98_apply, val_main_v96_apply, val_main_v97_apply]
  exact congrArg₂ (· - ·) (knot_read _ _ _ _ rfl (by show 4 + c.val = c.val + 2 + 2; omega))
    (knot_read _ _ _ _ rfl (Nat.add_comm 1 c.val))

/-- The degree-2 basis sliced at c … -/
theorem v102_at (x0 : (⟨S8x16x128x128, .f32⟩ : BufTy).Contents (Elt Ideal)) (x4 : (⟨S4x12, .f32⟩ : BufTy).Contents (Elt Ideal))
    (n : Fin 2064512) (k : Fin 4) (c : Fin 8) :
    val_main_v102 (F := Ideal) x0 x4 (ix3 n k c) = bspl (knot x4 k) (val_main_v9 (F := Ideal) x0 (ix2 n k)) 2 c.val := by
  have hc := c.isLt
  rw [val_main_v102_apply, show idx_main_v102 (ix3 n k c) = ix3 n k (⟨c.val, by omega⟩ : Fin 9) from ix3_ext rfl rfl rfl,
    spline_level2]

/-- … and at c+1. -/
theorem v104_at (x0 : (⟨S8x16x128x128, .f32⟩ : BufTy).Contents (Elt Ideal)) (x4 : (⟨S4x12, .f32⟩ : BufTy).Contents (Elt Ideal))
    (n : Fin 2064512) (k : Fin 4) (c : Fin 8) :
    val_main_v104 (F := Ideal) x0 x4 (ix3 n k c) = bspl (knot x4 k) (val_main_v9 (F := Ideal) x0 (ix2 n k)) 2 (c.val + 1) := by
  have hc := c.isLt
  rw [val_main_v104_apply, show idx_main_v104 (ix3 n k c) = ix3 n k (⟨c.val + 1, by omega⟩ : Fin 9) from
      ix3_ext rfl rfl (Fin.ext (Nat.add_comm 1 c.val)),
    spline_level2]

/-- Element (n, k, c) of the degree-3 basis is the degree-3 B-spline c on row k's knots at the window entry. -/
theorem spline_level3 (x0 : (⟨S8x16x128x128, .f32⟩ : BufTy).Contents (Elt Ideal)) (x4 : (⟨S4x12, .f32⟩ : BufTy).Contents (Elt Ideal))
    (n : Fin 2064512) (k : Fin 4) (c : Fin 8) :
    Cert.ReferenceIdeal.Read.val_main_v106 (F := Ideal) x0 x4 (ix3 n k c) = bspl (knot x4 k) (Cert.ReferenceIdeal.Read.val_main_v9 (F := Ideal) x0 (ix2 n k)) 3 c.val := by
  rw [val_main_v106_apply, val_main_v103_apply, val_main_v105_apply, val_main_v90_apply, val_main_v101_apply, v84_at, v89_at, v95_at, v100_at,
    v102_at, v104_at]
  exact (bspl_succ (knot x4 k) (val_main_v9 (F := Ideal) x0 (ix2 n k)) 2 c.val).symm

end Cert.KanConv.Ref

end
-- ==== Proof.RefLayer.lean ====
/-
  The reference program is the KAN layer of the specification.  It unfolds the 2×2 windows of x into a
  [2064512, 4] matrix (four shifted slices joined along a new last axis, flattened row-major), takes the
  base path as a matrix product of silu of that matrix with the base weights, builds the B-spline bases
  by Cox–de Boor over the knot table, takes the spline path as a matrix product of the bases flattened to
  32 columns with the scaled spline weights flattened likewise, adds the two, folds the rows back to
  [8, 16, 127, 127] and sums the channel axis from zero.  Read at an index each product is a finite sum,
  the 32 columns are the pairs (k, c) by quotient and remainder, and the row of (b, ch, p, q) is
  ((16 b + ch) · 127 + p) · 127 + q.
-/
import proofs.«135303_j4466765988468_1_alg».proof.Proof.Gen.ReferenceIdeal.Read
import proofs.«135303_j4466765988468_1_alg».proof.Proof.Spec
import proofs.«135303_j4466765988468_1_alg».proof.Proof.RefSpline
import Idealize.ShloMosaic.Lib.Pipeline.Value
import Idealize.ShloMosaic.Lib.ValueIdx
import Idealize.ShloMosaic.PureOps.Ideal.Laws
import Mathlib.Algebra.BigOperators.Fin

noncomputable section

namespace Cert.KanConv.Ref

open Cert.ReferenceIdeal Cert.ReferenceIdeal.Gen Cert.ReferenceIdeal.Read Cert.KanConv Idealize.ShloMosaic Idealize.ShloMosaic.ValueIdx

/-- The row of the unfolded [2064512, 4] matrix that holds the window of sample b, channel ch, corner (p, q). -/
def flat (b : Fin 8) (ch : Fin 16) (p q : Fin 127) : Fin 2064512 :=
  ⟨((b.val * 16 + ch.val) * 127 + p.val) * 127 + q.val, by
    have := b.isLt; have := ch.isLt; have := p.isLt; have := q.isLt; omega⟩

/-- Row `flat b ch p q`, column k of the unfolded matrix is entry k of that window: the four shifted
    slices are joined along a new last axis and the five axes flattened row-major. -/
theorem window_entry (x0 : (⟨S8x16x128x128, .f32⟩ : BufTy).Contents (Elt Ideal)) (b : Fin 8) (ch : Fin 16) (p q : Fin 127) (k : Fin 4) :
    val_main_v9 (F := Ideal) x0 (ix2 (flat b ch p q) k) = patch x0 b ch p q k := by
  have hb := b.isLt; have hch := ch.isLt; have hp := p.isLt; have hq := q.isLt
  unfold patch
  match k with
  | ⟨0, _⟩ =>
    rw [val_main_v9_apply]
    unfold val_main_v8
    refine (concatenate_apply_piece (t := S8x16x127x127x4) (4 : Fin 5) _ _ _
      0 (by show (0 : Nat) < 4; omega) S8x16x127x127x1 (val_main_v4 (F := Ideal) x0) rfl rfl 0 rfl (ix5 b ch p q (0 : Fin 1))
      (fun a ha => by
        match a with
        | ⟨0, _⟩ => show b.val = ((((b.val * 16 + ch.val) * 127 + p.val) * 127 + q.val) * 4 + 0) / 1032256; omega
        | ⟨1, _⟩ => show ch.val = ((((b.val * 16 + ch.val) * 127 + p.val) * 127 + q.val) * 4 + 0) / 64516 % 16; omega
        | ⟨2, _⟩ => show p.val = ((((b.val * 16 + ch.val) * 127 + p.val) * 127 + q.val) * 4 + 0) / 508 % 127; omega
        | ⟨3, _⟩ => show q.val = ((((b.val * 16 + ch.val) * 127 + p.val) * 127 + q.val) * 4 + 0) / 4 % 127; omega
        | ⟨4, _⟩ => exact absurd rfl ha)
      (by show 0 + 0 = ((((b.val * 16 + ch.val) * 127 + p.val) * 127 + q.val) * 4 + 0) % 4; omega)).trans ?_
    rw [val_main_v4_apply, val_main_v0_apply]
    refine congrArg x0 (funext fun a => Fin.ext ?_)
    match a with
    | ⟨0, _⟩ => rfl
    | ⟨1, _⟩ => rfl
    | ⟨2, _⟩ => show p.val = p.val + 0 / 2; omega
    | ⟨3, _⟩ => show q.val = q.val + 0 % 2; omega
  | ⟨1, _⟩ =>
    rw [val_main_v9_apply]
    unfold val_main_v8
    refine (concatenate_apply_piece (t := S8x16x127x127x4) (4 : Fin 5) _ _ _
      1 (by show (1 : Nat) < 4; omega) S8x16x127x127x1 (val_main_v5 (F := Ideal) x0) rfl rfl 1 rfl (ix5 b ch p q (0 : Fin 1))
      (fun a ha => by
        match a with
        | ⟨0, _⟩ => show b.val = ((((b.val * 16 + ch.val) * 127 + p.val) * 127 + q.val) * 4 + 1) / 1032256; omega
        | ⟨1, _⟩ => show ch.val = ((((b.val * 16 + ch.val) * 127 + p.val) * 127 + q.val) * 4 + 1) / 64516 % 16; omega
        | ⟨2, _⟩ => show p.val = ((((b.val * 16 + ch.val) * 127 + p.val) * 127 + q.val) * 4 + 1) / 508 % 127; omega
        | ⟨3, _⟩ => show q.val = ((((b.val * 16 + ch.val) * 127 + p.val) * 127 + q.val) * 4 + 1) / 4 % 127; omega
        | ⟨4, _⟩ => exact absurd rfl ha)
      (by show 1 + 0 = ((((b.val * 16 + ch.val) * 127 + p.val) * 127 + q.val) * 4 + 1) % 4; omega)).trans ?_
    rw [val_main_v5_apply, val_main_v1_apply]
    refine congrArg x0 (funext fun a => Fin.ext ?_)
    match a with
    | ⟨0, _⟩ => rfl
    | ⟨1, _⟩ => rfl
    | ⟨2, _⟩ => show p.val = p.val + 1 / 2; omega
    | ⟨3, _⟩ => show 1 + q.val = q.val + 1 % 2; omega
  | ⟨2, _⟩ =>
    rw [val_main_v9_apply]
    unfold val_main_v8
    refine (concatenate_apply_piece (t := S8x16x127x127x4) (4 : Fin 5) _ _ _
      2 (by show (2 : Nat) < 4; omega) S8x16x127x127x1 (val_main_v6 (F := Ideal) x0) rfl rfl 2 rfl (ix5 b ch p q (0 : Fin 1))
      (fun a ha => by
        match a with
        | ⟨0, _⟩ => show b.val = ((((b.val * 16 + ch.val) * 127 + p.val) * 127 + q.val) * 4 + 2) / 1032256; omega
        | ⟨1, _⟩ => show ch.val = ((((b.val * 16 + ch.val) * 127 + p.val) * 127 + q.val) * 4 + 2) / 64516 % 16; omega
        | ⟨2, _⟩ => show p.val = ((((b.val * 16 + ch.val) * 127 + p.val) * 127 + q.val) * 4 + 2) / 508 % 127; omega
        | ⟨3, _⟩ => show q.val = ((((b.val * 16 + ch.val) * 127 + p.val) * 127 + q.val) * 4 + 2) / 4 % 127; omega
        | ⟨4, _⟩ => exact absurd rfl ha)
      (by show 2 + 0 = ((((b.val * 16 + ch.val) * 127 + p.val) * 127 + q.val) * 4 + 2) % 4; omega)).trans ?_
    rw [val_main_v6_apply, val_main_v2_apply]
    refine congrArg x0 (funext fun a => Fin.ext ?_)
    match a with
    | ⟨0, _⟩ => rfl
    | ⟨1, _⟩ => rfl
    | ⟨2, _⟩ => show 1 + p.val = p.val + 2 / 2; omega
    | ⟨3, _⟩ => show q.val = q.val + 2 % 2; omega
  | ⟨3, _⟩ =>
    rw [val_main_v9_apply]
    unfold val_main_v8
    refine (concatenate_apply_piece (t := S8x16x127x127x4) (4 : Fin 5) _ _ _
      3 (by show (3 : Nat) < 4; omega) S8x16x127x127x1 (val_main_v7 (F := Ideal) x0) rfl rfl 3 rfl (ix5 b ch p q (0 : Fin 1))
      (fun a ha => by
        match a with
        | ⟨0, _⟩ => show b.val = ((((b.val * 16 + ch.val) * 127 + p.val) * 127 + q.val) * 4 + 3) / 1032256; omega
        | ⟨1, _⟩ => show ch.val = ((((b.val * 16 + ch.val) * 127 + p.val) * 127 + q.val) * 4 + 3) / 64516 % 16; omega
        | ⟨2, _⟩ => show p.val = ((((b.val * 16 + ch.val) * 127 + p.val) * 127 + q.val) * 4 + 3) / 508 % 127; omega
        | ⟨3, _⟩ => show q.val = ((((b.val * 16 + ch.val) * 127 + p.val) * 127 + q.val) * 4 + 3) / 4 % 127; omega
        | ⟨4, _⟩ => exact absurd rfl ha)
      (by show 3 + 0 = ((((b.val * 16 + ch.val) * 127 + p.val) * 127 + q.val) * 4 + 3) % 4; omega)).trans ?_
    rw [val_main_v7_apply, val_main_v3_apply]
    refine congrArg x0 (funext fun a => Fin.ext ?_)
    match a with
    | ⟨0, _⟩ => rfl
    | ⟨1, _⟩ => rfl
    | ⟨2, _⟩ => show 1 + p.val = p.val + 3 / 2; omega
    | ⟨3, _⟩ => show 1 + q.val = q.val + 3 % 2; omega

/-- The base path of one row: the sum over the window's entries of silu(x_k) · bw_k. -/
theorem base_product (x0 : (⟨S8x16x128x128, .f32⟩ : BufTy).Contents (Elt Ideal)) (x1 : (⟨S1x4, .f32⟩ : BufTy).Contents (Elt Ideal)) (n : Fin 2064512) :
    val_main_v12 (F := Ideal) x0 x1 (ix2 n 0) = ∑ k : Fin 4, silu (val_main_v9 (F := Ideal) x0 (ix2 n k)) * x1 (ix2 0 k) := by
  rw [val_main_v12_apply]
  refine Finset.sum_congr rfl fun k _ => ?_
  have el : lidx_main_v12 (ix2 n 0) k = ix2 n k := funext fun a => Fin.ext (by
    match a with
    | ⟨0, _⟩ => rfl
    | ⟨1, _⟩ => rfl)
  have er : idx_main_v11 (ridx_main_v12 (ix2 n (0 : Fin 1)) k) = ix2 (0 : Fin 1) k := funext fun a => Fin.ext (by
    match a with
    | ⟨0, _⟩ => rfl
    | ⟨1, _⟩ => rfl)
  rw [el, val_main_v11_apply, er, val_main_v10_apply, val_main_call0_v5_apply, val_main_call0_v4_apply, val_main_call0_cst_0_apply,
    val_main_call0_v3_apply, val_main_call0_v2_apply, val_main_call0_cst_apply, val_main_call0_v1_apply, val_main_call0_v0_apply]
  simp only [silu, Ideal.mulf_def, Ideal.hostDivf_def, Ideal.addf_def, Ideal.hostUnary_exp_def, Ideal.hostNegf_def, Ideal.negf_def,
    Ideal.ofBits_def]

/-- Entry j of the flattened, transposed weight column: sw_{k,c} · ss_k at k = j / 8, c = j % 8. -/
theorem weight_entry (x2 : (⟨S1x4x8, .f32⟩ : BufTy).Contents (Elt Ideal)) (x3 : (⟨S1x4, .f32⟩ : BufTy).Contents (Elt Ideal)) (j : Fin 32) :
    val_main_v112 (F := Ideal) x2 x3 (ix2 j (0 : Fin 1))
      = x2 (ix3 (0 : Fin 1) (⟨j.val / 8, by have := j.isLt; omega⟩ : Fin 4) (⟨j.val % 8, by omega⟩ : Fin 8))
        * x3 (ix2 (0 : Fin 1) (⟨j.val / 8, by have := j.isLt; omega⟩ : Fin 4)) := by
  have hj := j.isLt
  have e1 : idx_main_v111 (idx_main_v112 (ix2 j (0 : Fin 1)))
      = ix3 (0 : Fin 1) (⟨j.val / 8, by omega⟩ : Fin 4) (⟨j.val % 8, by omega⟩ : Fin 8) := funext fun a => Fin.ext (by
    match a with
    | ⟨0, _⟩ => rfl
    | ⟨1, _⟩ => show (0 * 32 + j.val) / 8 % 4 = j.val / 8; omega
    | ⟨2, _⟩ => show (0 * 32 + j.val) % 8 = j.val % 8; omega)
  have e2 : idx_main_v107 (idx_main_v108 (ix3 (0 : Fin 1) (⟨j.val / 8, by omega⟩ : Fin 4) (⟨j.val % 8, by omega⟩ : Fin 8)))
      = ix2 (0 : Fin 1) (⟨j.val / 8, by omega⟩ : Fin 4) := funext fun a => Fin.ext (by
    match a with
    | ⟨0, _⟩ => rfl
    | ⟨1, _⟩ => rfl)
  rw [val_main_v112_apply, val_main_v111_apply, e1, val_main_v109_apply, val_main_v108_apply, val_main_v107_apply, e2]
  rfl

/-- A sum over 32 = 4 · 8 indices read as quotient and remainder by 8 is the double sum. -/
theorem sum_by_eights {M : Type*} [AddCommMonoid M] (f : Fin 4 → Fin 8 → M) :
    ∑ j : Fin 32, f ⟨j.val / 8, by have := j.isLt; omega⟩ ⟨j.val % 8, by omega⟩ = ∑ k : Fin 4, ∑ c : Fin 8, f k c := by
  rw [← Fintype.sum_prod_type' f]
  refine Fintype.sum_equiv (finProdFinEquiv (m := 4) (n := 8)).symm _ _ fun j => ?_
  rfl

/-- The spline path of one row: the 32 products of a B-spline and its scaled weight, feature by feature. -/
theorem spline_product (x0 : (⟨S8x16x128x128, .f32⟩ : BufTy).Contents (Elt Ideal)) (x2 : (⟨S1x4x8, .f32⟩ : BufTy).Contents (Elt Ideal)) (x3 : (⟨S1x4, .f32⟩ : BufTy).Contents (Elt Ideal)) (x4 : (⟨S4x12, .f32⟩ : BufTy).Contents (Elt Ideal)) (n : Fin 2064512) :
    val_main_v113 (F := Ideal) x0 x2 x3 x4 (ix2 n 0)
      = ∑ k : Fin 4, ∑ c : Fin 8, bspl (knot x4 k) (val_main_v9 (F := Ideal) x0 (ix2 n k)) 3 c.val * (x2 (ix3 0 k c) * x3 (ix2 0 k)) := by
  rw [val_main_v113_apply, ← sum_by_eights]
  refine Finset.sum_congr rfl fun j _ => ?_
  have hj := j.isLt
  have hn := n.isLt
  have el : idx_main_v110 (lidx_main_v113 (ix2 n (0 : Fin 1)) j)
      = ix3 n (⟨j.val / 8, by omega⟩ : Fin 4) (⟨j.val % 8, by omega⟩ : Fin 8) := funext fun a => Fin.ext (by
    match a with
    | ⟨0, _⟩ => show (n.val * 32 + j.val) / 32 = n.val; omega
    | ⟨1, _⟩ => show (n.val * 32 + j.val) / 8 % 4 = j.val / 8; omega
    | ⟨2, _⟩ => show (n.val * 32 + j.val) % 8 = j.val % 8; omega)
  have er : ridx_main_v113 (ix2 n (0 : Fin 1)) j = ix2 j (0 : Fin 1) := funext fun a => Fin.ext (by
    match a with
    | ⟨0, _⟩ => rfl
    | ⟨1, _⟩ => rfl)
  rw [val_main_v110_apply, el, er, spline_level3, weight_entry]

/-- One row of the sum of the two paths: the cell of its window, with the window's entries still read from the unfolded matrix. -/
theorem row_value (x0 : (⟨S8x16x128x128, .f32⟩ : BufTy).Contents (Elt Ideal)) (x1 : (⟨S1x4, .f32⟩ : BufTy).Contents (Elt Ideal)) (x2 : (⟨S1x4x8, .f32⟩ : BufTy).Contents (Elt Ideal)) (x3 : (⟨S1x4, .f32⟩ : BufTy).Contents (Elt Ideal)) (x4 : (⟨S4x12, .f32⟩ : BufTy).Contents (Elt Ideal)) (n : Fin 2064512) :
    val_main_v114 (F := Ideal) x0 x1 x2 x3 x4 (ix2 n 0)
      = cell (fun k => val_main_v9 (F := Ideal) x0 (ix2 n k)) (knot x4) (fun k => x1 (ix2 0 k)) (fun k c => x2 (ix3 0 k c) * x3 (ix2 0 k)) := by
  rw [val_main_v114_apply, base_product, spline_product]
  rfl

/-- Folding the rows back to [8, 16, 127, 127]: entry (b, ch, p, q) is row `flat b ch p q`. -/
theorem folded_entry (x0 : (⟨S8x16x128x128, .f32⟩ : BufTy).Contents (Elt Ideal)) (x1 : (⟨S1x4, .f32⟩ : BufTy).Contents (Elt Ideal)) (x2 : (⟨S1x4x8, .f32⟩ : BufTy).Contents (Elt Ideal)) (x3 : (⟨S1x4, .f32⟩ : BufTy).Contents (Elt Ideal)) (x4 : (⟨S4x12, .f32⟩ : BufTy).Contents (Elt Ideal)) (b : Fin 8) (ch : Fin 16) (p q : Fin 127) :
    val_main_v115 (F := Ideal) x0 x1 x2 x3 x4 (ix4 b ch p q) = val_main_v114 (F := Ideal) x0 x1 x2 x3 x4 (ix2 (flat b ch p q) (0 : Fin 1)) := by
  rw [val_main_v115_apply]
  refine congrArg _ (funext fun a => Fin.ext ?_)
  match a with
  | ⟨0, _⟩ => show ((((b.val * 16 + ch.val) * 127 + p.val) * 127 + q.val)) / 1 = (((b.val * 16 + ch.val) * 127 + p.val) * 127 + q.val); omega
  | ⟨1, _⟩ => rfl

/-- The reference's result is the layer: the channel sum of each row's base path plus spline path. -/
theorem reference_is_layer (x0 : (⟨S8x16x128x128, .f32⟩ : BufTy).Contents (Elt Ideal)) (x1 : (⟨S1x4, .f32⟩ : BufTy).Contents (Elt Ideal)) (x2 : (⟨S1x4x8, .f32⟩ : BufTy).Contents (Elt Ideal)) (x3 : (⟨S1x4, .f32⟩ : BufTy).Contents (Elt Ideal)) (x4 : (⟨S4x12, .f32⟩ : BufTy).Contents (Elt Ideal)) :
    val_main_v117 (F := Ideal) x0 x1 x2 x3 x4 = layer x0 x1 x2 x3 x4 := by
  funext i
  obtain ⟨b, u, p, q, rfl⟩ : ∃ (b : Fin 8) (u : Fin 1) (p q : Fin 127), i = ix4 b u p q := ⟨i 0, i 1, i 2, i 3, eq_ix4 i⟩
  rw [val_main_v117_apply, val_main_v116_apply, val_main_cst_apply, Ideal.ofBits_def, Ideal.ofBits_zero_f32, zero_add]
  refine Finset.sum_congr rfl fun ch _ => ?_
  have e : idx_main_v116 (idx_main_v117 (ix4 b u p q)) ch = ix4 b ch p q := funext fun a => Fin.ext (by
    match a with
    | ⟨0, _⟩ => rfl
    | ⟨1, _⟩ => rfl
    | ⟨2, _⟩ => rfl
    | ⟨3, _⟩ => rfl)
  rw [e, folded_entry, row_value]
  refine congrArg (fun xs => cell xs (knot x4) (fun k => x1 (ix2 0 k)) (fun k c => x2 (ix3 0 k c) * x3 (ix2 0 k))) (funext fun k => ?_)
  exact window_entry x0 b ch p q k

end Cert.KanConv.Ref

end
-- ==== Proof.lean ====
/-
  The certificate of the KAN convolution layer (2×2 windows, one output channel, cubic B-splines on
  12 knots): the kernel and the reference, read on the extended reals from arguments that agree,
  both end with the output array at one function of the five arguments, `Cert.KanConv.layer` —
  entry (b, 0, p, q) is the sum over the 16 channels of the cell of the window with corner (p, q) —
  and leave the arguments unchanged.

  The kernel side is the grid's eight tiles put together (Proof/Array.lean, over the body's value at
  one position, Proof/Body.lean); the reference side is its operations composed and read at an index
  (Proof/RefLayer.lean).  The two frames of the kernel are the generated ones, the reference's frame
  is its run with the result dropped, and the idealization rewrote no operation.
-/
import proofs.«135303_j4466765988468_1_alg».proof.Defs
import proofs.«135303_j4466765988468_1_alg».proof.Proof.Gen.Kernel
import proofs.«135303_j4466765988468_1_alg».proof.Proof.Gen.Kernel.Skeleton
import proofs.«135303_j4466765988468_1_alg».proof.Proof.Gen.Kernel.Launch
import proofs.«135303_j4466765988468_1_alg».proof.Proof.Gen.Kernel.Points
import proofs.«135303_j4466765988468_1_alg».proof.Proof.Gen.Kernel.Frame
import proofs.«135303_j4466765988468_1_alg».proof.Proof.Gen.KernelIdeal
import proofs.«135303_j4466765988468_1_alg».proof.Proof.Gen.KernelIdeal.Skeleton
import proofs.«135303_j4466765988468_1_alg».proof.Proof.Gen.KernelIdeal.Launch
import proofs.«135303_j4466765988468_1_alg».proof.Proof.Gen.KernelIdeal.Points
import proofs.«135303_j4466765988468_1_alg».proof.Proof.Gen.KernelIdeal.Frame
import proofs.«135303_j4466765988468_1_alg».proof.Proof.Gen.ReferenceIdeal
import proofs.«135303_j4466765988468_1_alg».proof.Proof.Gen.Pre_finite_inputs
import proofs.«135303_j4466765988468_1_alg».proof.Proof.Gen.KernelIdeal.Value
import proofs.«135303_j4466765988468_1_alg».proof.Proof.Gen.ReferenceIdeal.Run
import proofs.«135303_j4466765988468_1_alg».proof.Proof.Gen.ReferenceIdeal.Read
import proofs.«135303_j4466765988468_1_alg».proof.Proof.Spec
import proofs.«135303_j4466765988468_1_alg».proof.Proof.Array
import proofs.«135303_j4466765988468_1_alg».proof.Proof.RefLayer
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- From arguments that agree, the kernel's output array and the reference's result are both the layer of the
    arguments: the kernel's by its tiles, the reference's by its operations read at an index. -/
theorem algebraic : Cert.algebraic_KernelIdeal_ReferenceIdeal := by
  intro m ρ m' ρ' _ hagree
  refine ⟨fun c => Cert.KanConv.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KanConv.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v117_eq, Cert.KanConv.Ref.reference_is_layer,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
